-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S5000x64 : Shape := ⟨2, ![5000, 64]⟩
abbrev S20000x64 : Shape := ⟨2, ![20000, 64]⟩
abbrev S5000x20000 : Shape := ⟨2, ![5000, 20000]⟩
abbrev S5000 : Shape := ⟨1, ![5000]⟩
abbrev S_ : Shape := ⟨0, ![]⟩

class Facts : Prop where
  bcast_S_S5000x64 : S_.BroadcastsInDim S5000x64 (![] : Fin 0 → Fin S5000x64.rank)
  reducesTo_S5000x64_S_d0_1 : S5000x64.ReducesTo [0, 1] S_
  h_S_ : 0 < S_.numel
  bcast_S_S20000x64 : S_.BroadcastsInDim S20000x64 (![] : Fin 0 → Fin S20000x64.rank)
  reducesTo_S20000x64_S_d0_1 : S20000x64.ReducesTo [0, 1] S_
  bcast_S_S5000x20000 : S_.BroadcastsInDim S5000x20000 (![] : Fin 0 → Fin S5000x20000.rank)
  reducesTo_S5000x20000_S_d0_1 : S5000x20000.ReducesTo [0, 1] S_

variable [Facts]

def fn {F : FTy → Type} [FloatOps F] (main_arg0 : FVec F S5000x64 .f32) (main_arg1 : FVec F S20000x64 .f32) (main_arg2 : FVec F S5000x20000 .f32) (main_arg3 : IVec S5000 32) : IVec S_ 1 :=
  let main_v0 : FVec F S5000x64 .f32 := Host.absf main_arg0
  let main_cst : FVec F S_ .f32 := constant S_ .f32 0x7F800000#32
  let main_v1 : FVec F S5000x64 .f32 := broadcastInDim S5000x64 ![] bcast_S_S5000x64 main_cst
  let main_v2 : IVec S5000x64 1 := cmpf .olt main_v0 main_v1
  let main_c : IVec S_ 1 := constantI S_ 1 1#1
  let main_v3 : IVec S_ 1 := (fun x v => Host.reduce IntOp.andi x v reducesTo_S5000x64_S_d0_1 h_S_) main_v2 main_c
  let main_v4 : FVec F S20000x64 .f32 := Host.absf main_arg1
  let main_cst_0 : FVec F S_ .f32 := constant S_ .f32 0x7F800000#32
  let main_v5 : FVec F S20000x64 .f32 := broadcastInDim S20000x64 ![] bcast_S_S20000x64 main_cst_0
  let main_v6 : IVec S20000x64 1 := cmpf .olt main_v4 main_v5
  let main_c_1 : IVec S_ 1 := constantI S_ 1 1#1
  let main_v7 : IVec S_ 1 := (fun x v => Host.reduce IntOp.andi x v reducesTo_S20000x64_S_d0_1 h_S_) main_v6 main_c_1
  let main_v8 : IVec S_ 1 := andi main_v3 main_v7
  let main_v9 : FVec F S5000x20000 .f32 := Host.absf main_arg2
  let main_cst_2 : FVec F S_ .f32 := constant S_ .f32 0x7F800000#32
  let main_v10 : FVec F S5000x20000 .f32 := broadcastInDim S5000x20000 ![] bcast_S_S5000x20000 main_cst_2
  let main_v11 : IVec S5000x20000 1 := cmpf .olt main_v9 main_v10
  let main_c_3 : IVec S_ 1 := constantI S_ 1 1#1
  let main_v12 : IVec S_ 1 := (fun x v => Host.reduce IntOp.andi x v reducesTo_S5000x20000_S_d0_1 h_S_) main_v11 main_c_3
  let main_v13 : IVec S_ 1 := andi main_v8 main_v12
  main_v13
-- ==== Kernel.lean ====
abbrev S5000x64 : Shape := ⟨2, ![5000, 64]⟩
abbrev S20000x64 : Shape := ⟨2, ![20000, 64]⟩
abbrev S5000x20000 : Shape := ⟨2, ![5000, 20000]⟩
abbrev S5000 : Shape := ⟨1, ![5000]⟩
abbrev S16x128 : Shape := ⟨2, ![16, 128]⟩
abbrev S40x64 : Shape := ⟨2, ![40, 64]⟩
abbrev S40x20000 : Shape := ⟨2, ![40, 20000]⟩
abbrev S8x128 : Shape := ⟨2, ![8, 128]⟩
abbrev S40 : Shape := ⟨1, ![40]⟩
abbrev S40x1 : Shape := ⟨2, ![40, 1]⟩
abbrev S1 : Shape := ⟨1, ![1]⟩
abbrev S1x1 : Shape := ⟨2, ![1, 1]⟩
abbrev S_ : Shape := ⟨0, ![]⟩
abbrev S5000x1 : Shape := ⟨2, ![5000, 1]⟩

abbrev nBuf : Space → Nat
  | .hbm => 35
  | .vmem => 7
  | .smem => 0
  | _ => 0

abbrev bufTy : (tb : Table) → Fin (tcTables nBuf tb) → BufTy
  | .hbm, ⟨0, _⟩ => ⟨S5000x64, .f32⟩
  | .hbm, ⟨1, _⟩ => ⟨S20000x64, .f32⟩
  | .hbm, ⟨2, _⟩ => ⟨S5000x20000, .f32⟩
  | .hbm, ⟨3, _⟩ => ⟨S5000, .i32⟩
  | .hbm, ⟨4, _⟩ => ⟨S5000x64, .bf16⟩
  | .hbm, ⟨5, _⟩ => ⟨S20000x64, .bf16⟩
  | .hbm, ⟨6, _⟩ => ⟨S16x128, .f32⟩
  | .hbm, ⟨7, _⟩ => ⟨S1x1, .f32⟩
  | .hbm, ⟨8, _⟩ => ⟨S_, .f32⟩
  | .hbm, ⟨9, _⟩ => ⟨S1x1, .f32⟩
  | .hbm, ⟨10, _⟩ => ⟨S_, .f32⟩
  | .hbm, ⟨11, _⟩ => ⟨S_, .f32⟩
  | .hbm, ⟨12, _⟩ => ⟨S_, .i32⟩
  | .hbm, ⟨13, _⟩ => ⟨S5000, .i32⟩
  | .hbm, ⟨14, _⟩ => ⟨S5000, .i1⟩
  | .hbm, ⟨15, _⟩ => ⟨S_, .i32⟩
  | .hbm, ⟨16, _⟩ => ⟨S5000, .i32⟩
  | .hbm, ⟨17, _⟩ => ⟨S5000, .i32⟩
  | .hbm, ⟨18, _⟩ => ⟨S5000, .i32⟩
  | .hbm, ⟨19, _⟩ => ⟨S5000x1, .i32⟩
  | .hbm, ⟨20, _⟩ => ⟨S5000x64, .f32⟩
  | .hbm, ⟨21, _⟩ => ⟨S5000x64, .f32⟩
  | .hbm, ⟨22, _⟩ => ⟨S5000x64, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .local _ .vmem, ⟨0, _⟩ => ⟨S40x64, .bf16⟩
  | .local _ .vmem, ⟨1, _⟩ => ⟨S40x64, .bf16⟩
  | .local _ .vmem, ⟨2, _⟩ => ⟨S20000x64, .bf16⟩
  | .local _ .vmem, ⟨3, _⟩ => ⟨S40x20000, .f32⟩
  | .local _ .vmem, ⟨4, _⟩ => ⟨S40x20000, .f32⟩
  | .local _ .vmem, ⟨5, _⟩ => ⟨S8x128, .f32⟩
  | .local _ .vmem, ⟨6, _⟩ => ⟨S8x128, .f32⟩
  | _, _ => ⟨S5000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_v8 : Ref sig .tc := ⟨.hbm, 13, rfl⟩
abbrev main_v9 : Ref sig .tc := ⟨.hbm, 14, rfl⟩
abbrev main_c_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 63], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_1 : BitVec 32 := 0#32
  let v3 : BitVec 1 := Scalar.cmpi .eq arg0 c0_i32_1
  let arg1 : BitVec 32 := BitVec.ofNat 32 (i 1).val
  let c63_i32 : BitVec 32 := 63#32
  let v4 : BitVec 32 := Scalar.addi c63_i32 arg1
  let v5 : BitVec 32 := Scalar.select v3 arg1 v4
  let c125_i32 : BitVec 32 := 125#32
  let v6 : BitVec 1 := Scalar.cmpi .slt v5 c125_i32
  let v7 : BitVec 32 := Scalar.extui v6
  let c0_i32_2 : BitVec 32 := 0#32
  let v8 : BitVec 1 := Scalar.cmpi .ne v7 c0_i32_2
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c63_i32 : BitVec 32 := 63#32
  let v1 : BitVec 32 := Scalar.addi c63_i32 arg1
  let v2 : BitVec 32 := Scalar.select v0 arg1 v1
  let c124_i32 : BitVec 32 := 124#32
  let v3 : BitVec 32 := Scalar.minsi v2 c124_i32
  let c0_i32_0 : BitVec 32 := 0#32
  let c0_i32_1 : BitVec 32 := 0#32
  ![v3.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c63_i32 : BitVec 32 := 63#32
  let v1 : BitVec 32 := Scalar.addi c63_i32 arg1
  let v2 : BitVec 32 := Scalar.select v0 arg1 v1
  let c124_i32 : BitVec 32 := 124#32
  let v3 : BitVec 32 := Scalar.minsi v2 c124_i32
  let c0_i32_0 : BitVec 32 := 0#32
  let c0_i32_1 : BitVec 32 := 0#32
  ![v3.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S40x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S20000x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S40x20000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  bitsLt_bf16_f32 : FTy.bits .bf16 < FTy.bits .f32
  inb_S8x128_S8x128_0_0 : ∀ a, (![0, 0] : Fin 2 → Nat) a + S8x128.size a ≤ S8x128.size a
  h_S8x128 : 0 < S8x128.numel
  inb_S40x64_S40x64_0_0 : ∀ a, (![0, 0] : Fin 2 → Nat) a + S40x64.size a ≤ S40x64.size a
  h_S40x64 : 0 < S40x64.numel
  shapeCasts_S40x64_S40x64 : S40x64.ShapeCasts S40x64
  inb_S40x20000_S40x20000_0_0 : ∀ a, (![0, 0] : Fin 2 → Nat) a + S40x20000.size a ≤ S40x20000.size a
  h_S40x20000 : 0 < S40x20000.numel
  inb_S20000x64_S20000x64_0_0 : ∀ a, (![0, 0] : Fin 2 → Nat) a + S20000x64.size a ≤ S20000x64.size a
  h_S20000x64 : 0 < S20000x64.numel
  shapeCasts_S20000x64_S20000x64 : S20000x64.ShapeCasts S20000x64
  reduces_S40x20000_S40 : S40x20000.Reduces [1] S40
  shapeCasts_S40_S40x1 : S40.ShapeCasts S40x1
  reduces_S40x1_S1 : S40x1.Reduces [0] S1
  shapeCasts_S1_S1x1 : S1.ShapeCasts S1x1
  shapeCasts_S8x128_S8x128 : S8x128.ShapeCasts S8x128
  shapeCasts_S1x1_S1x1 : S1x1.ShapeCasts S1x1
  broadcasts_S1x1_S8x128 : S1x1.Broadcasts S8x128
  slices_S16x128_S1x1_0_0 : S16x128.Slices ![0, 0] S1x1
  shapeCasts_S1x1_S_ : S1x1.ShapeCasts S_
  slices_S16x128_S1x1_8_0 : S16x128.Slices ![8, 0] S1x1
  bcast_S_S5000 : S_.BroadcastsInDim S5000 (![] : Fin 0 → Fin S5000.rank)
  bcast_S5000_S5000x1_0 : S5000.BroadcastsInDim S5000x1 (![0] : Fin 1 → Fin S5000x1.rank)
  reducesTo_S5000x64_S_d0_1 : S5000x64.ReducesTo [0, 1] S_
  h_S_ : 0 < S_.numel
  dot_S40x64_S20000x64_S40x20000_1_1_0_0_n_n_wf : DotDims.WF S40x64 S20000x64 S40x20000 [1] [1] [0] [0] [] []
  gather_S20000x64_S5000x1_S5000x64_1_0_n_n_0_1_164_wf : GatherDims.WF S20000x64 S5000x1 S5000x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S40x64.size a ≤ S5000x64.size a
  hwx0_0 : ∀ i : grid0.Coords, EltTy.bits .bf16 = 32 ∨ (Rect.block (s := S5000x64) S40x64.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S20000x64.size a ≤ S20000x64.size a
  hwx0_1 : ∀ i : grid0.Coords, EltTy.bits .bf16 = 32 ∨ (Rect.block (s := S20000x64) S20000x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S40x20000.size a ≤ S5000x20000.size a
  hwx0_2 : ∀ i : grid0.Coords, EltTy.bits .f32 = 32 ∨ (Rect.block (s := S5000x20000) S40x20000.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x128.size a ≤ S16x128.size a
  hwx0_3 : ∀ i : grid0.Coords, EltTy.bits .f32 = 32 ∨ (Rect.block (s := S16x128) S8x128.size (cc0_transform_3 i) (hinb0_3 i)).WholeWords (EltTy.packing .f32)

variable [Facts₀]

def dot_S40x64_S20000x64_S40x20000_1_1_0_0_n_n : DotDims S40x64 S20000x64 S40x20000 where
  lhsContracting := [1]
  rhsContracting := [1]
  lhsNonContracting := [0]
  rhsNonContracting := [0]
  lhsBatch := []
  rhsBatch := []
  wf := dot_S40x64_S20000x64_S40x20000_1_1_0_0_n_n_wf
def gather_S20000x64_S5000x1_S5000x64_1_0_n_n_0_1_164 : GatherDims S20000x64 S5000x1 S5000x64 where
  offsetDims := [1]
  collapsedSliceDims := [0]
  operandBatchingDims := []
  startIndicesBatchingDims := []
  startIndexMap := [0]
  indexVectorDim := 1
  sliceSizes := ![1, 64]
  wf := gather_S20000x64_S5000x1_S5000x64_1_0_n_n_0_1_164_wf

abbrev win0_0 : Pipeline.Window sig grid0 :=
  Pipeline.Window.ofSpec (Memref.whole main_v0) S40x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S20000x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S40x20000.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S8x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond1 i == 1#1) && !(k0_cond2 i == 1#1) | ⟨_ + 4, h⟩ => absurd h (Nat.not_lt.2 (Nat.le_add_left _ _))

class Facts : Prop extends Facts₀ where

variable [Facts]
-- ==== ReferenceIdeal.lean ====
abbrev S5000x64 : Shape := ⟨2, ![5000, 64]⟩
abbrev S20000x64 : Shape := ⟨2, ![20000, 64]⟩
abbrev S5000x20000 : Shape := ⟨2, ![5000, 20000]⟩
abbrev S5000 : Shape := ⟨1, ![5000]⟩
abbrev S_ : Shape := ⟨0, ![]⟩
abbrev S64x20000 : Shape := ⟨2, ![64, 20000]⟩
abbrev S5000x1 : Shape := ⟨2, ![5000, 1]⟩

abbrev nBuf : Space → Nat
  | .hbm => 36
  | .vmem => 0
  | .smem => 0
  | _ => 0

abbrev bufTy : (tb : Table) → Fin (tcTables nBuf tb) → BufTy
  | .hbm, ⟨0, _⟩ => ⟨S5000x64, .f32⟩
  | .hbm, ⟨1, _⟩ => ⟨S20000x64, .f32⟩
  | .hbm, ⟨2, _⟩ => ⟨S5000x20000, .f32⟩
  | .hbm, ⟨3, _⟩ => ⟨S5000, .i32⟩
  | .hbm, ⟨4, _⟩ => ⟨S_, .f32⟩
  | .hbm, ⟨5, _⟩ => ⟨S5000x20000, .f32⟩
  | .hbm, ⟨6, _⟩ => ⟨S5000x20000, .f32⟩
  | .hbm, ⟨7, _⟩ => ⟨S64x20000, .f32⟩
  | .hbm, ⟨8, _⟩ => ⟨S5000x20000, .f32⟩
  | .hbm, ⟨9, _⟩ => ⟨S5000x20000, .f32⟩
  | .hbm, ⟨10, _⟩ => ⟨S5000x20000, .f32⟩
  | .hbm, ⟨11, _⟩ => ⟨S_, .f32⟩
  | .hbm, ⟨12, _⟩ => ⟨S_, .f32⟩
  | .hbm, ⟨13, _⟩ => ⟨S_, .i32⟩
  | .hbm, ⟨14, _⟩ => ⟨S5000, .i32⟩
  | .hbm, ⟨15, _⟩ => ⟨S5000, .i1⟩
  | .hbm, ⟨16, _⟩ => ⟨S_, .i32⟩
  | .hbm, ⟨17, _⟩ => ⟨S5000, .i32⟩
  | .hbm, ⟨18, _⟩ => ⟨S5000, .i32⟩
  | .hbm, ⟨19, _⟩ => ⟨S5000, .i32⟩
  | .hbm, ⟨20, _⟩ => ⟨S5000x1, .i32⟩
  | .hbm, ⟨21, _⟩ => ⟨S5000x64, .f32⟩
  | .hbm, ⟨22, _⟩ => ⟨S5000x64, .f32⟩
  | .hbm, ⟨23, _⟩ => ⟨S5000x64, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | _, _ => ⟨S5000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_c : Ref sig .tc := ⟨.hbm, 13, rfl⟩
abbrev main_v7 : Ref sig .tc := ⟨.hbm, 14, rfl⟩
abbrev main_v8 : Ref sig .tc := ⟨.hbm, 15, rfl⟩
abbrev main_c_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩

abbrev nD : Nat := 1
abbrev τ : Topo := Topo.v7x

variable {F : FTy → Type} [FloatOps F]

class Facts₀ : Prop where
  bcast_S_S5000x20000 : S_.BroadcastsInDim S5000x20000 (![] : Fin 0 → Fin S5000x20000.rank)
  transposes_S20000x64_S64x20000_1_0 : S20000x64.Transposes [1, 0] S64x20000
  reducesTo_S5000x20000_S_d0_1 : S5000x20000.ReducesTo [0, 1] S_
  h_S_ : 0 < S_.numel
  bcast_S_S5000 : S_.BroadcastsInDim S5000 (![] : Fin 0 → Fin S5000.rank)
  bcast_S5000_S5000x1_0 : S5000.BroadcastsInDim S5000x1 (![0] : Fin 1 → Fin S5000x1.rank)
  reducesTo_S5000x64_S_d0_1 : S5000x64.ReducesTo [0, 1] S_
  dot_S5000x64_S64x20000_S5000x20000_1_0_0_1_n_n_wf : DotDims.WF S5000x64 S64x20000 S5000x20000 [1] [0] [0] [1] [] []
  gather_S20000x64_S5000x1_S5000x64_1_0_n_n_0_1_164_wf : GatherDims.WF S20000x64 S5000x1 S5000x64 [1] [0] [] [0] [] 1 ![1, 64]

variable [Facts₀]

def dot_S5000x64_S64x20000_S5000x20000_1_0_0_1_n_n : DotDims S5000x64 S64x20000 S5000x20000 where
  lhsContracting := [1]
  rhsContracting := [0]
  lhsNonContracting := [0]
  rhsNonContracting := [1]
  lhsBatch := []
  rhsBatch := []
  wf := dot_S5000x64_S64x20000_S5000x20000_1_0_0_1_n_n_wf
def gather_S20000x64_S5000x1_S5000x64_1_0_n_n_0_1_164 : GatherDims S20000x64 S5000x1 S5000x64 where
  offsetDims := [1]
  collapsedSliceDims := [0]
  operandBatchingDims := []
  startIndicesBatchingDims := []
  startIndexMap := [0]
  indexVectorDim := 1
  sliceSizes := ![1, 64]
  wf := gather_S20000x64_S5000x1_S5000x64_1_0_n_n_0_1_164_wf

class Facts : Prop extends Facts₀ where

variable [Facts]
-- ==== Proof.CasesBits.lean ====
/-
  The body of the accumulating kernel at one grid point, case by case.

  The grid is 2 x 63, walked in row-major order as 126 points t = 63 * c + i.  The body does two things,
  each under a condition on the point:
    * RESET (i = 0, i.e. t % 63 = 0): the 8 x 128 output block is overwritten with zeros;
    * ADD (the row block 63 * c + i exists, i.e. t < 125): the block's running contents x are replaced by
      x + s, where s is the sum of the squared residuals of one 40-row block, broadcast over the block.
  Three combinations occur on the grid: reset-and-add (t = 0, 63), add only (the other t < 125), and
  neither (t = 125, where the body touches nothing).  For each the body's Hoare triple is stated on
  arbitrary whole staging buffers, with the stores the output buffer ends with found by running the body.
-/
import proofs.«140353_j5720896438486_2_alg».proof.Proof.Gen.Kernel.Frame
import proofs.«140353_j5720896438486_2_alg».proof.Proof.Gen.Kernel.Skeleton

set_option maxRecDepth 16384

noncomputable section

namespace Cert.Kernel.Acc

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions, decided over the grid -/

/-- The reset condition of the body at coordinates `i`. -/
abbrev resets (i : grid0.Coords) : Prop := k0_cond1 i = 1#1
/-- It holds exactly at the first point of each of the two rows of the grid. -/
theorem resets_iff : ∀ t : Fin cfg0.N, resets (grid0.coords t) ↔ t.val % 63 = 0 :=
  (by decide +kernel : ∀ t : Fin grid0.N, resets (grid0.coords t) ↔ t.val % 63 = 0)

/-- The add condition of the body at coordinates `i`: the point's row block exists. -/
abbrev adds (i : grid0.Coords) : Prop := k0_cond2 i = 1#1
/-- It holds at every point but the last. -/
theorem adds_iff : ∀ t : Fin cfg0.N, adds (grid0.coords t) ↔ t.val < 125 :=
  (by decide +kernel : ∀ t : Fin grid0.N, adds (grid0.coords t) ↔ t.val < 125)

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
/-- The output window is idle at the last point only. -/
theorem idle3_iff : ∀ t : Fin cfg0.N, cfg0.idle 3 (grid0.coords t) = true ↔ t.val = 125 :=
  (by decide +kernel : ∀ t : Fin grid0.N, cfg0.idle 3 (grid0.coords t) = true ↔ t.val = 125)

/-! ## The staging buffers the body is called with -/

abbrev ms0 (t : Fin cfg0.N) : Memref sig .tc .vmem S40x64 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S20000x64 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S40x20000 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S8x128 .f32 := win0_3.stage (cfg0.slots t 3)
abbrev hs3 (t : Fin cfg0.N) : (ms3 t).IsWhole := hstage0_3 ((cfg0.slots t 3).cast nbuf0_3)

/-- One staging buffer of the output window, through which the block's contents are stated. -/
abbrev VO : View sig .tc .vmem S8x128 .f32 := (Memref.whole cc0_stg3_0 : Memref sig .tc .vmem S8x128 .f32).view

/-! ## The body, case by case -/

set_option maxHeartbeats 1000000 in
/-- Reset and add: whatever the output buffer held, the body ends with two stores written into it (the zeros,
    then zeros-plus-the-block's-sum), the three input buffers as they were. -/
noncomputable def runResetAdd (c : Dev nD) (i : grid0.Coords) (arg2 : Memref sig .tc .vmem S40x64 .bf16) (harg2 : arg2.IsWhole) (arg3 : Memref sig .tc .vmem S20000x64 .bf16) (harg3 : arg3.IsWhole) (arg4 : Memref sig .tc .vmem S40x20000 .f32) (harg4 : arg4.IsWhole) (arg5 : Memref sig .tc .vmem S8x128 .f32) (harg5 : arg5.IsWhole) (hc0 : resets i) (hc1 : adds i)
    (x0 : Vec F S40x64 .bf16) (x1 : Vec F S20000x64 .bf16) (x2 : Vec F S40x20000 .f32) :
    { L : List (View.Piece (Elt F) S8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L)) -∗ K ⟨⟩))
          ⊢ wp frame (wpE (defs₀ (F := F)) Variants.none c none) E (cc0__kernel i arg2 harg2 arg3 harg3 arg4 harg4 arg5 harg5) K } := by
  refine ⟨?_, fun E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%d3, %f3, -, H3⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

set_option maxHeartbeats 1000000 in
/-- Add only: from the output buffer at running contents `xo`, the body ends with one store written into it. -/
noncomputable def runAdd (c : Dev nD) (i : grid0.Coords) (arg2 : Memref sig .tc .vmem S40x64 .bf16) (harg2 : arg2.IsWhole) (arg3 : Memref sig .tc .vmem S20000x64 .bf16) (harg3 : arg3.IsWhole) (arg4 : Memref sig .tc .vmem S40x20000 .f32) (harg4 : arg4.IsWhole) (arg5 : Memref sig .tc .vmem S8x128 .f32) (harg5 : arg5.IsWhole) (hc0 : ¬resets i) (hc1 : adds i)
    (x0 : Vec F S40x64 .bf16) (x1 : Vec F S20000x64 .bf16) (x2 : Vec F S40x20000 .f32) (xo : Vec F S8x128 .f32) :
    { L : List (View.Piece (Elt F) S8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L)) -∗ K ⟨⟩))
          ⊢ wp frame (wpE (defs₀ (F := F)) Variants.none c none) E (cc0__kernel i arg2 harg2 arg3 harg3 arg4 harg4 arg5 harg5) K } := by
  refine ⟨?_, fun E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

set_option maxHeartbeats 1000000 in
/-- Neither: the body touches nothing; every buffer is handed back as it was. -/
theorem runNeither (c : Dev nD) (i : grid0.Coords) (arg2 : Memref sig .tc .vmem S40x64 .bf16) (harg2 : arg2.IsWhole) (arg3 : Memref sig .tc .vmem S20000x64 .bf16) (harg3 : arg3.IsWhole) (arg4 : Memref sig .tc .vmem S40x20000 .f32) (harg4 : arg4.IsWhole) (arg5 : Memref sig .tc .vmem S8x128 .f32) (harg5 : arg5.IsWhole) (hc0 : ¬resets i) (hc1 : ¬adds i)
    (x0 : Vec F S40x64 .bf16) (x1 : Vec F S20000x64 .bf16) (x2 : Vec F S40x20000 .f32) (xo : Vec F S8x128 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo
            ∗ (iprop(owns (c : Thread nD τ) arg2 fullShare x0 ∗ owns (c : Thread nD τ) arg3 fullShare x1 ∗ owns (c : Thread nD τ) arg4 fullShare x2 ∗ owns (c : Thread nD τ) arg5 fullShare xo) -∗ K ⟨⟩))
          ⊢ wp frame (wpE (defs₀ (F := F)) Variants.none c none) E (cc0__kernel i arg2 harg2 arg3 harg3 arg4 harg4 arg5 harg5) K := by
    intro E K
    simp only [cc0__kernel_eq_skeleton]; unfold cc0__kernel_skel
    iintro ⟨H0, H1, H2, H3, Hk⟩
    sl_exec (disch := first | exact hc0 | exact hc1)
    sl_step
    iapply Hk
    isplitl [H0]; · iexact H0
    isplitl [H1]; · iexact H1
    isplitl [H2]; · iexact H2
    iexact H3

end Cert.Kernel.Acc

end
-- ==== Proof.CarryBits.lean ====
/-
  What the 8 x 128 output block holds after each of the 126 grid points, and the run of the whole program.

  The block is an accumulator: at t = 0 and t = 63 it is reset to zeros and the first row block's sum is added;
  at every other t < 125 the point's sum is added to what the point before left; at t = 125 the body leaves
  it alone.  The block is written back to the 16 x 128 result after t = 62 (rows 0..7) and after t = 125
  (rows 8..15), so between write-backs the staging buffer carries the running sum from one point to the
  next.  This file defines that trajectory by recursion on t, gives the pipeline its proof data, proves the
  body obligation at every point from the three per-case triples, and concludes the run of @main: every
  execution terminates, the result array ends at the trajectory's written-back blocks, the host lines after
  the region run on it, and the argument arrays are unchanged.
-/
import proofs.«140353_j5720896438486_2_alg».proof.Proof.CasesBits

set_option maxRecDepth 16384

noncomputable section

namespace Cert.Kernel.Acc

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What a storing case leaves in the block -/

/-- The two stores of the reset-and-add case cover the block. -/
theorem coverResetAdd (c : Dev nD) (i : grid0.Coords) (arg2 : Memref sig .tc .vmem S40x64 .bf16) (harg2 : arg2.IsWhole) (arg3 : Memref sig .tc .vmem S20000x64 .bf16) (harg3 : arg3.IsWhole) (arg4 : Memref sig .tc .vmem S40x20000 .f32) (harg4 : arg4.IsWhole) (arg5 : Memref sig .tc .vmem S8x128 .f32) (harg5 : arg5.IsWhole) (hc0 : resets i) (hc1 : adds i)
    (x0 : Vec F S40x64 .bf16) (x1 : Vec F S20000x64 .bf16) (x2 : Vec F S40x20000 .f32) (y : S8x128.Idx) :
    ∃ pc ∈ (runResetAdd c i arg2 harg2 arg3 harg3 arg4 harg4 arg5 harg5 hc0 hc1 x0 x1 x2).1, y ∈ pc.1.set :=
  View.cover_of_tiledL (runResetAdd c i arg2 harg2 arg3 harg3 arg4 harg4 arg5 harg5 hc0 hc1 x0 x1 x2).1 S8x128.size (by sl_kernel_rfl) y

/-- The block after the reset-and-add case: its stores read back. -/
def blockResetAdd (c : Dev nD) (i : grid0.Coords) (arg2 : Memref sig .tc .vmem S40x64 .bf16) (harg2 : arg2.IsWhole) (arg3 : Memref sig .tc .vmem S20000x64 .bf16) (harg3 : arg3.IsWhole) (arg4 : Memref sig .tc .vmem S40x20000 .f32) (harg4 : arg4.IsWhole) (arg5 : Memref sig .tc .vmem S8x128 .f32) (harg5 : arg5.IsWhole) (hc0 : resets i) (hc1 : adds i)
    (x0 : Vec F S40x64 .bf16) (x1 : Vec F S20000x64 .bf16) (x2 : Vec F S40x20000 .f32) : Vec F S8x128 .f32 :=
  VO.read (Elt F) (VO.writes (Elt F) VO.junk (runResetAdd c i arg2 harg2 arg3 harg3 arg4 harg4 arg5 harg5 hc0 hc1 x0 x1 x2).1)

/-- The one store of the add-only case covers the block. -/
theorem coverAdd (c : Dev nD) (i : grid0.Coords) (arg2 : Memref sig .tc .vmem S40x64 .bf16) (harg2 : arg2.IsWhole) (arg3 : Memref sig .tc .vmem S20000x64 .bf16) (harg3 : arg3.IsWhole) (arg4 : Memref sig .tc .vmem S40x20000 .f32) (harg4 : arg4.IsWhole) (arg5 : Memref sig .tc .vmem S8x128 .f32) (harg5 : arg5.IsWhole) (hc0 : ¬resets i) (hc1 : adds i)
    (x0 : Vec F S40x64 .bf16) (x1 : Vec F S20000x64 .bf16) (x2 : Vec F S40x20000 .f32) (xo : Vec F S8x128 .f32) (y : S8x128.Idx) :
    ∃ pc ∈ (runAdd c i arg2 harg2 arg3 harg3 arg4 harg4 arg5 harg5 hc0 hc1 x0 x1 x2 xo).1, y ∈ pc.1.set :=
  View.cover_of_tiledL (runAdd c i arg2 harg2 arg3 harg3 arg4 harg4 arg5 harg5 hc0 hc1 x0 x1 x2 xo).1 S8x128.size (by sl_kernel_rfl) y

/-- The block after the add-only case, from running contents `xo`. -/
def blockAdd (c : Dev nD) (i : grid0.Coords) (arg2 : Memref sig .tc .vmem S40x64 .bf16) (harg2 : arg2.IsWhole) (arg3 : Memref sig .tc .vmem S20000x64 .bf16) (harg3 : arg3.IsWhole) (arg4 : Memref sig .tc .vmem S40x20000 .f32) (harg4 : arg4.IsWhole) (arg5 : Memref sig .tc .vmem S8x128 .f32) (harg5 : arg5.IsWhole) (hc0 : ¬resets i) (hc1 : adds i)
    (x0 : Vec F S40x64 .bf16) (x1 : Vec F S20000x64 .bf16) (x2 : Vec F S40x20000 .f32) (xo : Vec F S8x128 .f32) : Vec F S8x128 .f32 :=
  VO.read (Elt F) (VO.writes (Elt F) VO.junk (runAdd c i arg2 harg2 arg3 harg3 arg4 harg4 arg5 harg5 hc0 hc1 x0 x1 x2 xo).1)

/-! ## The trajectory of the block -/

/-- What the output's staging buffer holds after the body at point `n`. -/
def blockAt (c : Dev nD) : (n : ℕ) → n < cfg0.N → Vec F S8x128 .f32
  | 0, hn => blockResetAdd c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) ((resets_iff ⟨0, hn⟩).mpr (Nat.zero_mod _)) ((adds_iff ⟨0, hn⟩).mpr (Nat.zero_lt_succ 124)) (iblk m c 0 ⟨0, hn⟩) (iblk m c 1 ⟨0, hn⟩) (iblk m c 2 ⟨0, hn⟩)
  | n + 1, hn =>
    if h0 : (n + 1) % 63 = 0 then
      if h1 : n + 1 < 125 then
        blockResetAdd c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) ((resets_iff ⟨n + 1, hn⟩).mpr h0) ((adds_iff ⟨n + 1, hn⟩).mpr h1) (iblk m c 0 ⟨n + 1, hn⟩) (iblk m c 1 ⟨n + 1, hn⟩) (iblk m c 2 ⟨n + 1, hn⟩)
      else blockAt c n (Nat.lt_of_succ_lt hn)
    else
      if h1 : n + 1 < 125 then
        blockAdd c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (fun h => h0 ((resets_iff ⟨n + 1, hn⟩).mp h)) ((adds_iff ⟨n + 1, hn⟩).mpr h1) (iblk m c 0 ⟨n + 1, hn⟩) (iblk m c 1 ⟨n + 1, hn⟩) (iblk m c 2 ⟨n + 1, hn⟩) (blockAt c n (Nat.lt_of_succ_lt hn))
      else blockAt c n (Nat.lt_of_succ_lt hn)

theorem blockAt_resetAdd (c : Dev nD) (t : Fin cfg0.N) (h0 : t.val % 63 = 0) (h1 : t.val < 125) :
    blockAt m c t.val t.isLt = blockResetAdd c (grid0.coords t) (ms0 t) (hs0 t) (ms1 t) (hs1 t) (ms2 t) (hs2 t) (ms3 t) (hs3 t) ((resets_iff t).mpr h0) ((adds_iff t).mpr h1) (iblk m c 0 t) (iblk m c 1 t) (iblk m c 2 t) := by
  obtain ⟨n, hn⟩ := t
  cases n with
  | zero => exact rfl
  | succ n => exact (dif_pos h0).trans ((dif_pos h1).trans rfl)

theorem blockAt_add (c : Dev nD) (t : Fin cfg0.N) (h0 : ¬t.val % 63 = 0) (h1 : t.val < 125) :
    blockAt m c t.val t.isLt = blockAdd c (grid0.coords t) (ms0 t) (hs0 t) (ms1 t) (hs1 t) (ms2 t) (hs2 t) (ms3 t) (hs3 t) (fun h => h0 ((resets_iff t).mp h)) ((adds_iff t).mpr h1) (iblk m c 0 t) (iblk m c 1 t) (iblk m c 2 t) (blockAt m c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

theorem blockAt_neither (c : Dev nD) (t : Fin cfg0.N) (h0 : ¬t.val % 63 = 0) (h1 : ¬t.val < 125) :
    blockAt m c t.val t.isLt = blockAt m c (t.val - 1) (Nat.lt_of_le_of_lt (Nat.sub_le _ _) t.isLt) := by
  obtain ⟨n, hn⟩ := t
  cases n with
  | zero => exact absurd (Nat.zero_lt_succ 124) h1
  | succ n => exact (dif_neg h0).trans ((dif_neg h1).trans rfl)

/-! ## The pipeline's proof data -/

/-- The arrays as the region finds them; after the body each input's buffer at its block and the output's at the
    trajectory; nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => blockAt m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = blockAt m c t.val t.isLt := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

/-- At a point that does not reset, the output's staging buffer holds what the point before left: the point is not
    the first, the block was not written back in between, and the point before was not idle. -/
theorem before3_kept (c : Dev nD) (t : Fin cfg0.N) (h0 : ¬t.val % 63 = 0) (d) :
    (dats m 0 c).before 3 t d = blockAt m c (t.val - 1) (Nat.lt_of_le_of_lt (Nat.sub_le _ _) t.isLt) := by
  have hN : t.val < 126 := lt_of_lt_of_eq t.isLt (show cfg0.N = 126 from N_0)
  have ht : t.val ≠ 0 := fun h => h0 (by rw [h])
  rw [(dats m 0 c).before_of_pos 3 t ht ((cfg0.win 3).fetch_out rfl t),
    if_neg (fun h => by have := (flush0_3 _).mp h; dsimp only at this; omega)]
  unfold Dat.left
  rw [show cfg0.idle 3 (cfg0.grid.coords ⟨t.val - 1, Nat.lt_of_le_of_lt (Nat.sub_le _ _) t.isLt⟩) = false from
    Bool.eq_false_iff.mpr fun h => by have := (idle3_iff _).mp h; dsimp only at this; omega]
  unfold Dat.kept
  rw [Pipeline.fill_of_clip_none 3 _ (fun _ => rfl) d ((dats m 0 c).after 3 _), Window.fill_cut]
  dsimp only [dats]

/-- What the obligation asks of the output's buffer after the body is the trajectory's value at every point: where the
    window is live by definition, and at the idle last point because that point writes the block back. -/
theorem leaves3 (c : Dev nD) (t : Fin cfg0.N) :
    (dats m 0 c).leavesExact 3 t = owns (c : Thread nD τ) (ms3 t) fullShare ((dats m 0 c).after 3 t) := by
  have hN : t.val < 126 := lt_of_lt_of_eq t.isLt (show cfg0.N = 126 from N_0)
  unfold Dat.leavesExact
  by_cases h : t.val = 125
  · rw [(idle3_iff t).mpr h, (flush0_3 t).mpr (by omega)]
  · rw [Bool.eq_false_iff.mpr (fun hi => h ((idle3_iff t).mp hi))]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 1600000 in
/-- The body at any point: the inputs' buffers hold their blocks; arithmetic on `t` says which case the point is in; a
    case that reads the output before storing finds what the point before left; the idle point hands back what it found,
    which is the trajectory's value there. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).Φ t.succ = (dats m 0 c).Φ t.castSucc from rfl,
    show (dats m 0 c).owesAt () t.succ = (dats m 0 c).owesAt () t.castSucc from rfl]
  rw [show (dats m 0 c).leavesExact 0 t = owns (c : Thread nD τ) (ms0 t) fullShare ((dats m 0 c).after 0 t) from by
      unfold Dat.leavesExact; rw [live0 t], after0]
  rw [show (dats m 0 c).leavesExact 1 t = owns (c : Thread nD τ) (ms1 t) fullShare ((dats m 0 c).after 1 t) from by
      unfold Dat.leavesExact; rw [live1 t], after1]
  rw [show (dats m 0 c).leavesExact 2 t = owns (c : Thread nD τ) (ms2 t) fullShare ((dats m 0 c).after 2 t) from by
      unfold Dat.leavesExact; rw [live2 t], after2]
  rw [leaves3, after3]
  have hN : t.val < 126 := lt_of_lt_of_eq t.isLt (show cfg0.N = 126 from N_0)
  by_cases h0 : t.val % 63 = 0
  · have h1 : t.val < 125 := by omega
    rw [blockAt_resetAdd m c t h0 h1]
    unfold blockResetAdd
    iintro ⟨HΦ, Ho, ⟨%d0, H0⟩, ⟨%d1, H1⟩, ⟨%d2, H2⟩, ⟨%d3, H3⟩⟩
    iapply ((runResetAdd c (grid0.coords t) _ _ _ _ _ _ _ _ ((resets_iff t).mpr h0) ((adds_iff t).mpr h1) (iblk m c 0 t) (iblk m c 1 t) (iblk m c 2 t)).2 Set.univ _)
    isplitl [H0]; · iexact H0
    isplitl [H1]; · iexact H1
    isplitl [H2]; · iexact H2
    isplitl [H3]; · iexists _; iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (coverResetAdd c _ _ _ _ _ _ _ _ _ _ _ _ _ _)
  · by_cases h1 : t.val < 125
    · rw [blockAt_add m c t h0 h1]
      simp only [before3_kept m c t h0]
      unfold blockAdd
      iintro ⟨HΦ, Ho, ⟨%d0, H0⟩, ⟨%d1, H1⟩, ⟨%d2, H2⟩, ⟨%d3, H3⟩⟩
      iapply ((runAdd c (grid0.coords t) _ _ _ _ _ _ _ _ (fun h => h0 ((resets_iff t).mp h)) ((adds_iff t).mpr h1) (iblk m c 0 t) (iblk m c 1 t) (iblk m c 2 t) _).2 Set.univ _)
      isplitl [H0]; · iexact H0
      isplitl [H1]; · iexact H1
      isplitl [H2]; · iexact H2
      isplitl [H3]; · iexact H3
      iintro ⟨H0, H1, H2, ⟨%e3, H3⟩⟩
      isplitl [HΦ]; · iexact HΦ
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverAdd c _ _ _ _ _ _ _ _ _ _ _ _ _ _ _)
    · rw [blockAt_neither m c t h0 h1]
      simp only [before3_kept m c t h0]
      iintro ⟨HΦ, Ho, ⟨%d0, H0⟩, ⟨%d1, H1⟩, ⟨%d2, H2⟩, ⟨%d3, H3⟩⟩
      iapply ((runNeither c (grid0.coords t) _ _ _ _ _ _ _ _ (fun h => h0 ((resets_iff t).mp h)) (fun h => h1 ((adds_iff t).mp h)) (iblk m c 0 t) (iblk m c 1 t) (iblk m c 2 t) _) Set.univ _)
      isplitl [H0]; · iexact H0
      isplitl [H1]; · iexact H1
      isplitl [H2]; · iexact H2
      isplitl [H3]; · iexact H3
      iintro ⟨H0, H1, H2, H3⟩
      isplitl [HΦ]; · iexact HΦ
      isplitl [Ho]; · iexact Ho
      isplitl [H0]; · iexact H0
      isplitl [H1]; · iexact H1
      isplitl [H2]; · iexact H2
      iexact H3

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates; the result array ends at the written-back blocks of the
    trajectory, every other buffer at what the host lines after the region compute from them. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Acc

end
-- ==== Proof.CasesIdeal.lean ====
/-
  The body of the accumulating kernel at one grid point, case by case.

  The grid is 2 x 63, walked in row-major order as 126 points t = 63 * c + i.  The body does two things,
  each under a condition on the point:
    * RESET (i = 0, i.e. t % 63 = 0): the 8 x 128 output block is overwritten with zeros;
    * ADD (the row block 63 * c + i exists, i.e. t < 125): the block's running contents x are replaced by
      x + s, where s is the sum of the squared residuals of one 40-row block, broadcast over the block.
  Three combinations occur on the grid: reset-and-add (t = 0, 63), add only (the other t < 125), and
  neither (t = 125, where the body touches nothing).  For each the body's Hoare triple is stated on
  arbitrary whole staging buffers, with the stores the output buffer ends with found by running the body.
-/
import proofs.«140353_j5720896438486_2_alg».proof.Proof.Gen.KernelIdeal.Frame
import proofs.«140353_j5720896438486_2_alg».proof.Proof.Gen.KernelIdeal.Skeleton

set_option maxRecDepth 16384

noncomputable section

namespace Cert.KernelIdeal.Acc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions, decided over the grid -/

/-- The reset condition of the body at coordinates `i`. -/
abbrev resets (i : grid0.Coords) : Prop := k0_cond1 i = 1#1
/-- It holds exactly at the first point of each of the two rows of the grid. -/
theorem resets_iff : ∀ t : Fin cfg0.N, resets (grid0.coords t) ↔ t.val % 63 = 0 :=
  (by decide +kernel : ∀ t : Fin grid0.N, resets (grid0.coords t) ↔ t.val % 63 = 0)

/-- The add condition of the body at coordinates `i`: the point's row block exists. -/
abbrev adds (i : grid0.Coords) : Prop := k0_cond2 i = 1#1
/-- It holds at every point but the last. -/
theorem adds_iff : ∀ t : Fin cfg0.N, adds (grid0.coords t) ↔ t.val < 125 :=
  (by decide +kernel : ∀ t : Fin grid0.N, adds (grid0.coords t) ↔ t.val < 125)

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
/-- The output window is idle at the last point only. -/
theorem idle3_iff : ∀ t : Fin cfg0.N, cfg0.idle 3 (grid0.coords t) = true ↔ t.val = 125 :=
  (by decide +kernel : ∀ t : Fin grid0.N, cfg0.idle 3 (grid0.coords t) = true ↔ t.val = 125)

/-! ## The staging buffers the body is called with -/

abbrev ms0 (t : Fin cfg0.N) : Memref sig .tc .vmem S40x64 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S20000x64 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S40x20000 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S8x128 .f32 := win0_3.stage (cfg0.slots t 3)
abbrev hs3 (t : Fin cfg0.N) : (ms3 t).IsWhole := hstage0_3 ((cfg0.slots t 3).cast nbuf0_3)

/-- One staging buffer of the output window, through which the block's contents are stated. -/
abbrev VO : View sig .tc .vmem S8x128 .f32 := (Memref.whole cc0_stg3_0 : Memref sig .tc .vmem S8x128 .f32).view

/-! ## The body, case by case -/

set_option maxHeartbeats 1000000 in
/-- Reset and add: whatever the output buffer held, the body ends with two stores written into it (the zeros,
    then zeros-plus-the-block's-sum), the three input buffers as they were. -/
noncomputable def runResetAdd (c : Dev nD) (i : grid0.Coords) (arg2 : Memref sig .tc .vmem S40x64 .bf16) (harg2 : arg2.IsWhole) (arg3 : Memref sig .tc .vmem S20000x64 .bf16) (harg3 : arg3.IsWhole) (arg4 : Memref sig .tc .vmem S40x20000 .f32) (harg4 : arg4.IsWhole) (arg5 : Memref sig .tc .vmem S8x128 .f32) (harg5 : arg5.IsWhole) (hc0 : resets i) (hc1 : adds i)
    (x0 : Vec F S40x64 .bf16) (x1 : Vec F S20000x64 .bf16) (x2 : Vec F S40x20000 .f32) :
    { L : List (View.Piece (Elt F) S8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L)) -∗ K ⟨⟩))
          ⊢ wp frame (wpE (defs₀ (F := F)) Variants.none c none) E (cc0__kernel i arg2 harg2 arg3 harg3 arg4 harg4 arg5 harg5) K } := by
  refine ⟨?_, fun E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%d3, %f3, -, H3⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

set_option maxHeartbeats 1000000 in
/-- Add only: from the output buffer at running contents `xo`, the body ends with one store written into it. -/
noncomputable def runAdd (c : Dev nD) (i : grid0.Coords) (arg2 : Memref sig .tc .vmem S40x64 .bf16) (harg2 : arg2.IsWhole) (arg3 : Memref sig .tc .vmem S20000x64 .bf16) (harg3 : arg3.IsWhole) (arg4 : Memref sig .tc .vmem S40x20000 .f32) (harg4 : arg4.IsWhole) (arg5 : Memref sig .tc .vmem S8x128 .f32) (harg5 : arg5.IsWhole) (hc0 : ¬resets i) (hc1 : adds i)
    (x0 : Vec F S40x64 .bf16) (x1 : Vec F S20000x64 .bf16) (x2 : Vec F S40x20000 .f32) (xo : Vec F S8x128 .f32) :
    { L : List (View.Piece (Elt F) S8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L)) -∗ K ⟨⟩))
          ⊢ wp frame (wpE (defs₀ (F := F)) Variants.none c none) E (cc0__kernel i arg2 harg2 arg3 harg3 arg4 harg4 arg5 harg5) K } := by
  refine ⟨?_, fun E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

set_option maxHeartbeats 1000000 in
/-- Neither: the body touches nothing; every buffer is handed back as it was. -/
theorem runNeither (c : Dev nD) (i : grid0.Coords) (arg2 : Memref sig .tc .vmem S40x64 .bf16) (harg2 : arg2.IsWhole) (arg3 : Memref sig .tc .vmem S20000x64 .bf16) (harg3 : arg3.IsWhole) (arg4 : Memref sig .tc .vmem S40x20000 .f32) (harg4 : arg4.IsWhole) (arg5 : Memref sig .tc .vmem S8x128 .f32) (harg5 : arg5.IsWhole) (hc0 : ¬resets i) (hc1 : ¬adds i)
    (x0 : Vec F S40x64 .bf16) (x1 : Vec F S20000x64 .bf16) (x2 : Vec F S40x20000 .f32) (xo : Vec F S8x128 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo
            ∗ (iprop(owns (c : Thread nD τ) arg2 fullShare x0 ∗ owns (c : Thread nD τ) arg3 fullShare x1 ∗ owns (c : Thread nD τ) arg4 fullShare x2 ∗ owns (c : Thread nD τ) arg5 fullShare xo) -∗ K ⟨⟩))
          ⊢ wp frame (wpE (defs₀ (F := F)) Variants.none c none) E (cc0__kernel i arg2 harg2 arg3 harg3 arg4 harg4 arg5 harg5) K := by
    intro E K
    simp only [cc0__kernel_eq_skeleton]; unfold cc0__kernel_skel
    iintro ⟨H0, H1, H2, H3, Hk⟩
    sl_exec (disch := first | exact hc0 | exact hc1)
    sl_step
    iapply Hk
    isplitl [H0]; · iexact H0
    isplitl [H1]; · iexact H1
    isplitl [H2]; · iexact H2
    iexact H3

end Cert.KernelIdeal.Acc

end
-- ==== Proof.CarryIdeal.lean ====
/-
  What the 8 x 128 output block holds after each of the 126 grid points, and the run of the whole program.

  The block is an accumulator: at t = 0 and t = 63 it is reset to zeros and the first row block's sum is added;
  at every other t < 125 the point's sum is added to what the point before left; at t = 125 the body leaves
  it alone.  The block is written back to the 16 x 128 result after t = 62 (rows 0..7) and after t = 125
  (rows 8..15), so between write-backs the staging buffer carries the running sum from one point to the
  next.  This file defines that trajectory by recursion on t, gives the pipeline its proof data, proves the
  body obligation at every point from the three per-case triples, and concludes the run of @main: every
  execution terminates, the result array ends at the trajectory's written-back blocks, the host lines after
  the region run on it, and the argument arrays are unchanged.
-/
import proofs.«140353_j5720896438486_2_alg».proof.Proof.CasesIdeal

set_option maxRecDepth 16384

noncomputable section

namespace Cert.KernelIdeal.Acc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What a storing case leaves in the block -/

/-- The two stores of the reset-and-add case cover the block. -/
theorem coverResetAdd (c : Dev nD) (i : grid0.Coords) (arg2 : Memref sig .tc .vmem S40x64 .bf16) (harg2 : arg2.IsWhole) (arg3 : Memref sig .tc .vmem S20000x64 .bf16) (harg3 : arg3.IsWhole) (arg4 : Memref sig .tc .vmem S40x20000 .f32) (harg4 : arg4.IsWhole) (arg5 : Memref sig .tc .vmem S8x128 .f32) (harg5 : arg5.IsWhole) (hc0 : resets i) (hc1 : adds i)
    (x0 : Vec F S40x64 .bf16) (x1 : Vec F S20000x64 .bf16) (x2 : Vec F S40x20000 .f32) (y : S8x128.Idx) :
    ∃ pc ∈ (runResetAdd c i arg2 harg2 arg3 harg3 arg4 harg4 arg5 harg5 hc0 hc1 x0 x1 x2).1, y ∈ pc.1.set :=
  View.cover_of_tiledL (runResetAdd c i arg2 harg2 arg3 harg3 arg4 harg4 arg5 harg5 hc0 hc1 x0 x1 x2).1 S8x128.size (by sl_kernel_rfl) y

/-- The block after the reset-and-add case: its stores read back. -/
def blockResetAdd (c : Dev nD) (i : grid0.Coords) (arg2 : Memref sig .tc .vmem S40x64 .bf16) (harg2 : arg2.IsWhole) (arg3 : Memref sig .tc .vmem S20000x64 .bf16) (harg3 : arg3.IsWhole) (arg4 : Memref sig .tc .vmem S40x20000 .f32) (harg4 : arg4.IsWhole) (arg5 : Memref sig .tc .vmem S8x128 .f32) (harg5 : arg5.IsWhole) (hc0 : resets i) (hc1 : adds i)
    (x0 : Vec F S40x64 .bf16) (x1 : Vec F S20000x64 .bf16) (x2 : Vec F S40x20000 .f32) : Vec F S8x128 .f32 :=
  VO.read (Elt F) (VO.writes (Elt F) VO.junk (runResetAdd c i arg2 harg2 arg3 harg3 arg4 harg4 arg5 harg5 hc0 hc1 x0 x1 x2).1)

/-- The one store of the add-only case covers the block. -/
theorem coverAdd (c : Dev nD) (i : grid0.Coords) (arg2 : Memref sig .tc .vmem S40x64 .bf16) (harg2 : arg2.IsWhole) (arg3 : Memref sig .tc .vmem S20000x64 .bf16) (harg3 : arg3.IsWhole) (arg4 : Memref sig .tc .vmem S40x20000 .f32) (harg4 : arg4.IsWhole) (arg5 : Memref sig .tc .vmem S8x128 .f32) (harg5 : arg5.IsWhole) (hc0 : ¬resets i) (hc1 : adds i)
    (x0 : Vec F S40x64 .bf16) (x1 : Vec F S20000x64 .bf16) (x2 : Vec F S40x20000 .f32) (xo : Vec F S8x128 .f32) (y : S8x128.Idx) :
    ∃ pc ∈ (runAdd c i arg2 harg2 arg3 harg3 arg4 harg4 arg5 harg5 hc0 hc1 x0 x1 x2 xo).1, y ∈ pc.1.set :=
  View.cover_of_tiledL (runAdd c i arg2 harg2 arg3 harg3 arg4 harg4 arg5 harg5 hc0 hc1 x0 x1 x2 xo).1 S8x128.size (by sl_kernel_rfl) y

/-- The block after the add-only case, from running contents `xo`. -/
def blockAdd (c : Dev nD) (i : grid0.Coords) (arg2 : Memref sig .tc .vmem S40x64 .bf16) (harg2 : arg2.IsWhole) (arg3 : Memref sig .tc .vmem S20000x64 .bf16) (harg3 : arg3.IsWhole) (arg4 : Memref sig .tc .vmem S40x20000 .f32) (harg4 : arg4.IsWhole) (arg5 : Memref sig .tc .vmem S8x128 .f32) (harg5 : arg5.IsWhole) (hc0 : ¬resets i) (hc1 : adds i)
    (x0 : Vec F S40x64 .bf16) (x1 : Vec F S20000x64 .bf16) (x2 : Vec F S40x20000 .f32) (xo : Vec F S8x128 .f32) : Vec F S8x128 .f32 :=
  VO.read (Elt F) (VO.writes (Elt F) VO.junk (runAdd c i arg2 harg2 arg3 harg3 arg4 harg4 arg5 harg5 hc0 hc1 x0 x1 x2 xo).1)

/-! ## The trajectory of the block -/

/-- What the output's staging buffer holds after the body at point `n`. -/
def blockAt (c : Dev nD) : (n : ℕ) → n < cfg0.N → Vec F S8x128 .f32
  | 0, hn => blockResetAdd c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) ((resets_iff ⟨0, hn⟩).mpr (Nat.zero_mod _)) ((adds_iff ⟨0, hn⟩).mpr (Nat.zero_lt_succ 124)) (iblk m c 0 ⟨0, hn⟩) (iblk m c 1 ⟨0, hn⟩) (iblk m c 2 ⟨0, hn⟩)
  | n + 1, hn =>
    if h0 : (n + 1) % 63 = 0 then
      if h1 : n + 1 < 125 then
        blockResetAdd c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) ((resets_iff ⟨n + 1, hn⟩).mpr h0) ((adds_iff ⟨n + 1, hn⟩).mpr h1) (iblk m c 0 ⟨n + 1, hn⟩) (iblk m c 1 ⟨n + 1, hn⟩) (iblk m c 2 ⟨n + 1, hn⟩)
      else blockAt c n (Nat.lt_of_succ_lt hn)
    else
      if h1 : n + 1 < 125 then
        blockAdd c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (fun h => h0 ((resets_iff ⟨n + 1, hn⟩).mp h)) ((adds_iff ⟨n + 1, hn⟩).mpr h1) (iblk m c 0 ⟨n + 1, hn⟩) (iblk m c 1 ⟨n + 1, hn⟩) (iblk m c 2 ⟨n + 1, hn⟩) (blockAt c n (Nat.lt_of_succ_lt hn))
      else blockAt c n (Nat.lt_of_succ_lt hn)

theorem blockAt_resetAdd (c : Dev nD) (t : Fin cfg0.N) (h0 : t.val % 63 = 0) (h1 : t.val < 125) :
    blockAt m c t.val t.isLt = blockResetAdd c (grid0.coords t) (ms0 t) (hs0 t) (ms1 t) (hs1 t) (ms2 t) (hs2 t) (ms3 t) (hs3 t) ((resets_iff t).mpr h0) ((adds_iff t).mpr h1) (iblk m c 0 t) (iblk m c 1 t) (iblk m c 2 t) := by
  obtain ⟨n, hn⟩ := t
  cases n with
  | zero => exact rfl
  | succ n => exact (dif_pos h0).trans ((dif_pos h1).trans rfl)

theorem blockAt_add (c : Dev nD) (t : Fin cfg0.N) (h0 : ¬t.val % 63 = 0) (h1 : t.val < 125) :
    blockAt m c t.val t.isLt = blockAdd c (grid0.coords t) (ms0 t) (hs0 t) (ms1 t) (hs1 t) (ms2 t) (hs2 t) (ms3 t) (hs3 t) (fun h => h0 ((resets_iff t).mp h)) ((adds_iff t).mpr h1) (iblk m c 0 t) (iblk m c 1 t) (iblk m c 2 t) (blockAt m c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

theorem blockAt_neither (c : Dev nD) (t : Fin cfg0.N) (h0 : ¬t.val % 63 = 0) (h1 : ¬t.val < 125) :
    blockAt m c t.val t.isLt = blockAt m c (t.val - 1) (Nat.lt_of_le_of_lt (Nat.sub_le _ _) t.isLt) := by
  obtain ⟨n, hn⟩ := t
  cases n with
  | zero => exact absurd (Nat.zero_lt_succ 124) h1
  | succ n => exact (dif_neg h0).trans ((dif_neg h1).trans rfl)

/-! ## The pipeline's proof data -/

/-- The arrays as the region finds them; after the body each input's buffer at its block and the output's at the
    trajectory; nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => blockAt m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = blockAt m c t.val t.isLt := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

/-- At a point that does not reset, the output's staging buffer holds what the point before left: the point is not
    the first, the block was not written back in between, and the point before was not idle. -/
theorem before3_kept (c : Dev nD) (t : Fin cfg0.N) (h0 : ¬t.val % 63 = 0) (d) :
    (dats m 0 c).before 3 t d = blockAt m c (t.val - 1) (Nat.lt_of_le_of_lt (Nat.sub_le _ _) t.isLt) := by
  have hN : t.val < 126 := lt_of_lt_of_eq t.isLt (show cfg0.N = 126 from N_0)
  have ht : t.val ≠ 0 := fun h => h0 (by rw [h])
  rw [(dats m 0 c).before_of_pos 3 t ht ((cfg0.win 3).fetch_out rfl t),
    if_neg (fun h => by have := (flush0_3 _).mp h; dsimp only at this; omega)]
  unfold Dat.left
  rw [show cfg0.idle 3 (cfg0.grid.coords ⟨t.val - 1, Nat.lt_of_le_of_lt (Nat.sub_le _ _) t.isLt⟩) = false from
    Bool.eq_false_iff.mpr fun h => by have := (idle3_iff _).mp h; dsimp only at this; omega]
  unfold Dat.kept
  rw [Pipeline.fill_of_clip_none 3 _ (fun _ => rfl) d ((dats m 0 c).after 3 _), Window.fill_cut]
  dsimp only [dats]

/-- What the obligation asks of the output's buffer after the body is the trajectory's value at every point: where the
    window is live by definition, and at the idle last point because that point writes the block back. -/
theorem leaves3 (c : Dev nD) (t : Fin cfg0.N) :
    (dats m 0 c).leavesExact 3 t = owns (c : Thread nD τ) (ms3 t) fullShare ((dats m 0 c).after 3 t) := by
  have hN : t.val < 126 := lt_of_lt_of_eq t.isLt (show cfg0.N = 126 from N_0)
  unfold Dat.leavesExact
  by_cases h : t.val = 125
  · rw [(idle3_iff t).mpr h, (flush0_3 t).mpr (by omega)]
  · rw [Bool.eq_false_iff.mpr (fun hi => h ((idle3_iff t).mp hi))]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 1600000 in
/-- The body at any point: the inputs' buffers hold their blocks; arithmetic on `t` says which case the point is in; a
    case that reads the output before storing finds what the point before left; the idle point hands back what it found,
    which is the trajectory's value there. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).Φ t.succ = (dats m 0 c).Φ t.castSucc from rfl,
    show (dats m 0 c).owesAt () t.succ = (dats m 0 c).owesAt () t.castSucc from rfl]
  rw [show (dats m 0 c).leavesExact 0 t = owns (c : Thread nD τ) (ms0 t) fullShare ((dats m 0 c).after 0 t) from by
      unfold Dat.leavesExact; rw [live0 t], after0]
  rw [show (dats m 0 c).leavesExact 1 t = owns (c : Thread nD τ) (ms1 t) fullShare ((dats m 0 c).after 1 t) from by
      unfold Dat.leavesExact; rw [live1 t], after1]
  rw [show (dats m 0 c).leavesExact 2 t = owns (c : Thread nD τ) (ms2 t) fullShare ((dats m 0 c).after 2 t) from by
      unfold Dat.leavesExact; rw [live2 t], after2]
  rw [leaves3, after3]
  have hN : t.val < 126 := lt_of_lt_of_eq t.isLt (show cfg0.N = 126 from N_0)
  by_cases h0 : t.val % 63 = 0
  · have h1 : t.val < 125 := by omega
    rw [blockAt_resetAdd m c t h0 h1]
    unfold blockResetAdd
    iintro ⟨HΦ, Ho, ⟨%d0, H0⟩, ⟨%d1, H1⟩, ⟨%d2, H2⟩, ⟨%d3, H3⟩⟩
    iapply ((runResetAdd c (grid0.coords t) _ _ _ _ _ _ _ _ ((resets_iff t).mpr h0) ((adds_iff t).mpr h1) (iblk m c 0 t) (iblk m c 1 t) (iblk m c 2 t)).2 Set.univ _)
    isplitl [H0]; · iexact H0
    isplitl [H1]; · iexact H1
    isplitl [H2]; · iexact H2
    isplitl [H3]; · iexists _; iexact H3
    iintro ⟨H0, H1, H2, ⟨%e3, H3⟩⟩
    isplitl [HΦ]; · iexact HΦ
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (coverResetAdd c _ _ _ _ _ _ _ _ _ _ _ _ _ _)
  · by_cases h1 : t.val < 125
    · rw [blockAt_add m c t h0 h1]
      simp only [before3_kept m c t h0]
      unfold blockAdd
      iintro ⟨HΦ, Ho, ⟨%d0, H0⟩, ⟨%d1, H1⟩, ⟨%d2, H2⟩, ⟨%d3, H3⟩⟩
      iapply ((runAdd c (grid0.coords t) _ _ _ _ _ _ _ _ (fun h => h0 ((resets_iff t).mp h)) ((adds_iff t).mpr h1) (iblk m c 0 t) (iblk m c 1 t) (iblk m c 2 t) _).2 Set.univ _)
      isplitl [H0]; · iexact H0
      isplitl [H1]; · iexact H1
      isplitl [H2]; · iexact H2
      isplitl [H3]; · iexact H3
      iintro ⟨H0, H1, H2, ⟨%e3, H3⟩⟩
      isplitl [HΦ]; · iexact HΦ
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverAdd c _ _ _ _ _ _ _ _ _ _ _ _ _ _ _)
    · rw [blockAt_neither m c t h0 h1]
      simp only [before3_kept m c t h0]
      iintro ⟨HΦ, Ho, ⟨%d0, H0⟩, ⟨%d1, H1⟩, ⟨%d2, H2⟩, ⟨%d3, H3⟩⟩
      iapply ((runNeither c (grid0.coords t) _ _ _ _ _ _ _ _ (fun h => h0 ((resets_iff t).mp h)) (fun h => h1 ((adds_iff t).mp h)) (iblk m c 0 t) (iblk m c 1 t) (iblk m c 2 t) _) Set.univ _)
      isplitl [H0]; · iexact H0
      isplitl [H1]; · iexact H1
      isplitl [H2]; · iexact H2
      isplitl [H3]; · iexact H3
      iintro ⟨H0, H1, H2, H3⟩
      isplitl [HΦ]; · iexact HΦ
      isplitl [Ho]; · iexact Ho
      isplitl [H0]; · iexact H0
      isplitl [H1]; · iexact H1
      isplitl [H2]; · iexact H2
      iexact H3

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates; the result array ends at the written-back blocks of the
    trajectory, every other buffer at what the host lines after the region compute from them. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Acc

end
-- ==== Proof.BlockValue.lean ====
/-
  What the two storing cases leave in the output block, as the body's arithmetic.

  The add-only case ends with one store of the whole block, whose value is the body's sum term applied to the three
  input blocks and to the block's running contents; the reset-and-add case ends with two stores of the whole block,
  the later of which is the same sum term applied to the zeros the earlier one stored.  A store of the whole block,
  made last, is what the block holds; a load of the whole block after a whole-block store reads that store.
-/
import proofs.«140353_j5720896438486_2_alg».proof.Proof.CarryIdeal
import Idealize.ShloMosaic.Lib.Pipeline.Value

set_option maxRecDepth 16384

noncomputable section

namespace Cert.KernelIdeal.Acc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem origin_zero : (![0, 0] : Fin 2 → Nat) = fun _ => 0 := funext fun a => by fin_cases a <;> rfl

/-- The block after the add-only case is the sum term over the running contents. -/
theorem blockAdd_eq (c : Dev nD) (i : grid0.Coords) (arg2 : Memref sig .tc .vmem S40x64 .bf16) (harg2 : arg2.IsWhole) (arg3 : Memref sig .tc .vmem S20000x64 .bf16) (harg3 : arg3.IsWhole) (arg4 : Memref sig .tc .vmem S40x20000 .f32) (harg4 : arg4.IsWhole) (arg5 : Memref sig .tc .vmem S8x128 .f32) (harg5 : arg5.IsWhole) (hc0 : ¬resets i) (hc1 : adds i)
    (x0 : Vec F S40x64 .bf16) (x1 : Vec F S20000x64 .bf16) (x2 : Vec F S40x20000 .f32) (xo : Vec F S8x128 .f32) :
    blockAdd c i arg2 harg2 arg3 harg3 arg4 harg4 arg5 harg5 hc0 hc1 x0 x1 x2 xo = k0_pay2 x0 x2 x1 xo := by
  unfold blockAdd
  rw [View.read_writes_eq_canon _ _ _ (coverAdd c i arg2 harg2 arg3 harg3 arg4 harg4 arg5 harg5 hc0 hc1 x0 x1 x2 xo)]
  unfold runAdd
  dsimp only
  rw [View.canon_unit_zero origin_zero]
  simp only [View.readAt_eq_ld, harg2.read_unread, harg3.read_unread, harg4.read_unread, harg5.read_unread,
    View.ld_unit_zero (S := S40x64) origin_zero, View.ld_unit_zero (S := S20000x64) origin_zero,
    View.ld_unit_zero (S := S40x20000) origin_zero, View.ld_unit_zero (S := S8x128) origin_zero]

/-- The block after the reset-and-add case is the sum term over the zeros just stored. -/
theorem blockResetAdd_eq (c : Dev nD) (i : grid0.Coords) (arg2 : Memref sig .tc .vmem S40x64 .bf16) (harg2 : arg2.IsWhole) (arg3 : Memref sig .tc .vmem S20000x64 .bf16) (harg3 : arg3.IsWhole) (arg4 : Memref sig .tc .vmem S40x20000 .f32) (harg4 : arg4.IsWhole) (arg5 : Memref sig .tc .vmem S8x128 .f32) (harg5 : arg5.IsWhole) (hc0 : resets i) (hc1 : adds i)
    (x0 : Vec F S40x64 .bf16) (x1 : Vec F S20000x64 .bf16) (x2 : Vec F S40x20000 .f32) :
    blockResetAdd c i arg2 harg2 arg3 harg3 arg4 harg4 arg5 harg5 hc0 hc1 x0 x1 x2 = k0_pay2 x0 x2 x1 (k0_pay1 (F := F)) := by
  unfold blockResetAdd
  rw [View.read_writes_eq_canon _ _ _ (coverResetAdd c i arg2 harg2 arg3 harg3 arg4 harg4 arg5 harg5 hc0 hc1 x0 x1 x2)]
  unfold runResetAdd
  dsimp only
  sl_unfold_words
  rw [View.canon_cons_unit_zero origin_zero, View.readCov_unit_zero _ origin_zero]
  simp only [View.readAt_eq_ld, harg2.read_unread, harg3.read_unread, harg4.read_unread,
    View.ld_unit_zero (S := S40x64) origin_zero, View.ld_unit_zero (S := S20000x64) origin_zero,
    View.ld_unit_zero (S := S40x20000) origin_zero]

end Cert.KernelIdeal.Acc

end
-- ==== Proof.HashSpec.lean ====
/-
  The hash term of the loss, as mathematics on the extended reals.

  For matrices f (R x 64), b (N x 64) and s (R x N) and a scalar c, the squared residual of entry (r, j) is
      (c * s[r, j] - sum_k f[r, k] * b[j, k])^2,
  and the hash term is the sum of all R * N of them.  Two facts are proved here.
    * Splitting 5000 rows into 125 blocks of 40: a sum over the 5000 rows is the sum over the blocks of the sums
      over each block's rows.  Only commutativity and associativity of addition are used, so the entries may
      be infinite.
    * An accumulator that is reset at steps 0 and 63, adds one term at every step below 125 and idles at step
      125 holds, after step 62 and after step 125 together, the sum of all 125 terms.
-/
import Idealize.ShloMosaic.Lib.ValueIdx

noncomputable section

namespace HashLoss

open Idealize.ShloMosaic Idealize.ShloMosaic.ValueIdx

/-- The scalar 64, as both programs spell it. -/
abbrev c64 : EReal := Ideal.ofBits .f32 0x42800000#32

/-- The squared residual of entry (r, j). -/
def sqRes {R N : ℕ} (c : EReal) (f : (⟨2, ![R, 64]⟩ : Shape).Idx → EReal) (b : (⟨2, ![N, 64]⟩ : Shape).Idx → EReal)
    (s : (⟨2, ![R, N]⟩ : Shape).Idx → EReal) (r : Fin R) (j : Fin N) : EReal :=
  (c * s (ix2 r j) - ∑ k : Fin 64, f (ix2 r k) * b (ix2 j k)) * (c * s (ix2 r j) - ∑ k : Fin 64, f (ix2 r k) * b (ix2 j k))

/-- The sum of the squared residuals of all entries. -/
def total {R N : ℕ} (c : EReal) (f : (⟨2, ![R, 64]⟩ : Shape).Idx → EReal) (b : (⟨2, ![N, 64]⟩ : Shape).Idx → EReal)
    (s : (⟨2, ![R, N]⟩ : Shape).Idx → EReal) : EReal :=
  ∑ r : Fin R, ∑ j : Fin N, sqRes c f b s r j

/-- A sum over 5000 rows, taken 40 rows at a time. -/
theorem sum_rows_blocks {M : Type*} [AddCommMonoid M] (g : Fin 5000 → M) :
    ∑ r : Fin 5000, g r = ∑ p : Fin 125, ∑ q : Fin 40, g ⟨40 * p.val + q.val, by have := p.isLt; have := q.isLt; omega⟩ := by
  have e := Equiv.sum_comp (finProdFinEquiv (m := 125) (n := 40)) (g : Fin (125 * 40) → M)
  rw [Fintype.sum_prod_type] at e
  rw [← e]
  refine Finset.sum_congr rfl fun p _ => Finset.sum_congr rfl fun q _ => congrArg g (Fin.ext ?_)
  show q.val + 40 * p.val = 40 * p.val + q.val
  omega

/-- The accumulator's trajectory: reset-and-add at steps 0 and 63, add at the other steps below 125, idle at 125. -/
def accum (h : ℕ → EReal) : ℕ → EReal
  | 0 => 0 + h 0
  | n + 1 =>
    if (n + 1) % 63 = 0 then (if n + 1 < 125 then 0 + h (n + 1) else accum h n)
    else if n + 1 < 125 then accum h n + h (n + 1) else accum h n

theorem accum_low (h : ℕ → EReal) : ∀ n, n ≤ 62 → accum h n = ∑ s ∈ Finset.range (n + 1), h s
  | 0, _ => by simp [accum]
  | n + 1, hn => by
    have h0 : ¬(n + 1) % 63 = 0 := by omega
    have h1 : n + 1 < 125 := by omega
    rw [accum, if_neg h0, if_pos h1, accum_low h n (by omega), Finset.sum_range_succ _ (n + 1)]

theorem accum_high (h : ℕ → EReal) : ∀ k, 63 + k ≤ 124 → accum h (63 + k) = ∑ s ∈ Finset.range (k + 1), h (63 + s)
  | 0, _ => by
    show accum h (62 + 1) = _
    rw [accum, if_pos (by norm_num), if_pos (by norm_num)]
    simp
  | k + 1, hk => by
    have h0 : ¬(63 + k + 1) % 63 = 0 := by omega
    have h1 : 63 + k + 1 < 125 := by omega
    show accum h (63 + k + 1) = _
    rw [accum, if_neg h0, if_pos h1, accum_high h k (by omega), Finset.sum_range_succ _ (k + 1)]
    rfl

theorem accum_last (h : ℕ → EReal) : accum h 125 = accum h 124 := by
  show accum h (124 + 1) = _
  rw [accum, if_neg (by norm_num), if_neg (by norm_num)]

/-- What the two written-back values add up to: all 125 terms. -/
theorem accum_two_rows (h : ℕ → EReal) : accum h 62 + accum h 125 = ∑ p : Fin 125, h p.val := by
  have e1 : accum h 62 = ∑ s ∈ Finset.range 63, h s := accum_low h 62 (le_refl _)
  have e2 : accum h 125 = ∑ s ∈ Finset.range 62, h (63 + s) := (accum_last h).trans (accum_high h 61 (by norm_num))
  have e3 : ∑ s ∈ Finset.range (63 + 62), h s = ∑ s ∈ Finset.range 63, h s + ∑ s ∈ Finset.range 62, h (63 + s) :=
    Finset.sum_range_add h 63 62
  rw [e1, e2, ← e3]
  exact Finset.sum_range (fun s => h s)

end HashLoss

end
-- ==== Proof.LibKeepdims.lean ====
/-
  A sum along one axis of a matrix that keeps the reduced axis as a unit axis, read at an index.

  A row sum with the axis kept is printed as a reduction of the [A, B] matrix over axis 1 into a vector of length
  A, followed by a cast of that vector into the [A, 1] column. At exact arithmetic the reduction at row r is the
  sum over k of the entry (r, k); the cast reads the vector at r, because (r, 0) and r have the same row-major
  position. The same for a column sum over axis 0.
-/
import Idealize.ShloMosaic.Lib.ValueIdx
import Idealize.ShloMosaic.Lib.Pipeline.Value
import Idealize.ShloMosaic.PureOps.Ideal.Laws

noncomputable section

namespace LibKeepdims

open Idealize.ShloMosaic Idealize.ShloMosaic.ValueIdx

variable {φ : FTy}

/-- The exact sum over axis 1 of an [A, B] matrix, at row r: the sum over k of the entry (r, k). -/
theorem sum_axis1_apply {A B : ℕ} (src : FVec Ideal ⟨2, ![A, B]⟩ φ) (acc : BitVec φ.bits)
    (h : Shape.Reduces ⟨2, ![A, B]⟩ [1] ⟨1, ![A]⟩) (hφ : FKind.Formats φ) (hacc : acc = FKind.add.neutral φ hφ) (r : Fin A) :
    multiReduction .add [1] ⟨1, ![A]⟩ src acc h hφ hacc (ix1 r) = ∑ k : Fin B, src (ix2 r k) := by
  refine (Ideal.multiReduction_add_single src acc h hφ hacc (ix1 r)).trans ?_
  show ∑ k : Fin B, src (h.lift (ix1 r) k) = _
  refine Finset.sum_congr rfl fun k _ => congrArg src ?_
  funext d
  match d with
  | ⟨0, _⟩ => exact Fin.ext rfl
  | ⟨1, _⟩ => exact Fin.ext rfl

/-- The exact sum over axis 0 of an [A, B] matrix, at column c: the sum over k of the entry (k, c). -/
theorem sum_axis0_apply {A B : ℕ} (src : FVec Ideal ⟨2, ![A, B]⟩ φ) (acc : BitVec φ.bits)
    (h : Shape.Reduces ⟨2, ![A, B]⟩ [0] ⟨1, ![B]⟩) (hφ : FKind.Formats φ) (hacc : acc = FKind.add.neutral φ hφ) (c : Fin B) :
    multiReduction .add [0] ⟨1, ![B]⟩ src acc h hφ hacc (ix1 c) = ∑ k : Fin A, src (ix2 k c) := by
  refine (Ideal.multiReduction_add_single src acc h hφ hacc (ix1 c)).trans ?_
  show ∑ k : Fin A, src (h.lift (ix1 c) k) = _
  refine Finset.sum_congr rfl fun k _ => congrArg src ?_
  funext d
  match d with
  | ⟨0, _⟩ => exact Fin.ext rfl
  | ⟨1, _⟩ => exact Fin.ext rfl

/-- A vector of length a cast into the [a, 1] column, read at (r, 0): the vector at r. -/
theorem shapeCast_col_apply {α : Type} {a : ℕ} (x : (⟨1, ![a]⟩ : Shape).Idx → α)
    (h : (⟨1, ![a]⟩ : Shape).ShapeCasts ⟨2, ![a, 1]⟩) (r : Fin a) (z : Fin 1) :
    shapeCast ⟨2, ![a, 1]⟩ x h (ix2 r z) = x (ix1 r) := by
  refine shapeCast_apply x h _ _ ?_
  rw [Shape.rowMajor_val_one, Shape.rowMajor_val_two]
  show r.val = r.val * 1 + z.val
  omega

end LibKeepdims

end
-- ==== Proof.LibMatmulNT.lean ====
/-
  A TensorCore product of an M×K matrix with an N×K matrix, each contracted along its SECOND axis (the right factor
  enters transposed without being transposed in memory), at exact arithmetic, read at an entry: the accumulator's
  entry plus the sum over the contracted axis of the products of the left factor's row entries with the right
  factor's ROW entries,

      (acc + l · rᵀ)[j₀, j₁] = acc[j₀, j₁] + Σ_k l[j₀, k] · r[j₁, k].

  Stated for any contraction record between two-axis shapes whose operand indices are "row of the result, contracted
  position" and "column of the result, contracted position" — four facts that hold by computation for the record such
  a product prints. Nothing is asked of the entries: at exact arithmetic the product is this sum by definition, and the
  only step is to re-index the one-axis contraction by its coordinate.
-/
import Idealize.ShloMosaic.Lib.ValueIdx
import Idealize.ShloMosaic.PureOps.Ideal.Laws

noncomputable section

namespace LibMatmulNT

open Idealize.ShloMosaic Idealize.ShloMosaic.ValueIdx

/-- `tpu.matmul` of an M×K by an N×K matrix, both contracted on axis 1, onto an accumulator, at entry `j`:
    `acc[j] + Σ_k l[j₀,k] · r[j₁,k]`. -/
theorem matmul_nt_apply {M K N : ℕ} {φ₁ φ₂ : FTy} (D : DotDims ⟨2, ![M, K]⟩ ⟨2, ![N, K]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (j 1).val) (hr1 : ∀ j k, (D.rhsIdx j k 1).val = (k ⟨0, by omega⟩).val)
    (prec : Option ContractPrecision) (l : FVec Ideal ⟨2, ![M, K]⟩ φ₁) (r : FVec Ideal ⟨2, ![N, K]⟩ φ₂)
    (acc : FVec Ideal ⟨2, ![M, N]⟩ .f32) (j : (⟨2, ![M, N]⟩ : Shape).Idx) :
    FloatOps.matmul (F := Ideal) D prec l r acc j
      = acc j + ∑ k : Fin K, l (ix2 (n0 := M) (n1 := K) (j 0) k) * r (ix2 (n0 := N) (n1 := K) (j 1) k) := by
  rw [Ideal.matmul_apply, ← Equiv.sum_comp (contrEquiv1 D K hr hs).symm]
  refine congrArg (acc j + ·) (Finset.sum_congr rfl fun k _ => ?_)
  have hk := contrEquiv1_symm_val D K hr hs k
  have e1 : D.lhsIdx j ((contrEquiv1 D K hr hs).symm k) = ix2 (n0 := M) (n1 := K) (j 0) k := funext fun a => Fin.ext (by
    match a with
    | ⟨0, _⟩ => exact hl0 _ _
    | ⟨1, _⟩ => exact (hl1 _ _).trans hk)
  have e2 : D.rhsIdx j ((contrEquiv1 D K hr hs).symm k) = ix2 (n0 := N) (n1 := K) (j 1) k := funext fun a => Fin.ext (by
    match a with
    | ⟨0, _⟩ => exact hr0 _ _
    | ⟨1, _⟩ => exact (hr1 _ _).trans hk)
  rw [e1, e2]

/-- The same into the zero splat: the accumulator's entry is `0`, so the entry is the bare sum. -/
theorem matmul_nt_zero_apply {M K N : ℕ} {φ₁ φ₂ : FTy} (D : DotDims ⟨2, ![M, K]⟩ ⟨2, ![N, K]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (j 1).val) (hr1 : ∀ j k, (D.rhsIdx j k 1).val = (k ⟨0, by omega⟩).val)
    (prec : Option ContractPrecision) (l : FVec Ideal ⟨2, ![M, K]⟩ φ₁) (r : FVec Ideal ⟨2, ![N, K]⟩ φ₂)
    (j : (⟨2, ![M, N]⟩ : Shape).Idx) :
    FloatOps.matmul (F := Ideal) D prec l r (constant ⟨2, ![M, N]⟩ .f32 0x00000000#32) j
      = ∑ k : Fin K, l (ix2 (n0 := M) (n1 := K) (j 0) k) * r (ix2 (n0 := N) (n1 := K) (j 1) k) := by
  rw [matmul_nt_apply D hr hs hl0 hl1 hr0 hr1]
  show Ideal.ofBits .f32 0x00000000#32 + _ = _
  rw [Ideal.ofBits_zero_f32, zero_add]

end LibMatmulNT

end
-- ==== Proof.StepSum.lean ====
/-
  The body's sum term at exact arithmetic, read at an index.

  Given the 40 x 64 block f of the first factor, the whole 20000 x 64 second factor b, the 40 x 20000 block s
  and the output block's running contents x, the term is x + (the sum over the 40 rows r and 20000 columns j of
  (64 * s[r, j] - sum_k f[r, k] * b[j, k])^2) at every index of the 8 x 128 block: the product into a zero
  accumulator is the bare sum over k, the row sums are taken along axis 1, kept as a 40 x 1 column, summed along
  axis 0 into one number, and that number is broadcast over the block.
-/
import proofs.«140353_j5720896438486_2_alg».proof.Proof.Gen.KernelIdeal.Skeleton
import proofs.«140353_j5720896438486_2_alg».proof.Proof.HashSpec
import proofs.«140353_j5720896438486_2_alg».proof.Proof.LibKeepdims
import proofs.«140353_j5720896438486_2_alg».proof.Proof.LibMatmulNT
import Idealize.ShloMosaic.Lib.Pipeline.Value
import Idealize.ShloMosaic.Lib.ValueIdx
import Idealize.ShloMosaic.PureOps.Ideal.Laws

set_option maxRecDepth 16384

noncomputable section

namespace Cert.KernelIdeal.StepSum

open Cert.KernelIdeal Cert.KernelIdeal.Gen
open Idealize.ShloMosaic Idealize.ShloMosaic.ValueIdx HashLoss

abbrev prodDims := dot_S40x64_S20000x64_S40x20000_1_1_0_0_n_n

theorem prod_l0 (j : S40x20000.Idx) (q : prodDims.contr.Idx) : (prodDims.lhsIdx j q 0).val = (j 0).val := by
  unfold DotDims.lhsIdx
  rw [dif_neg (show ¬(0 : Fin S40x64.rank) ∈ prodDims.lhsBatch by decide), dif_pos (show (0 : Fin S40x64.rank) ∈ prodDims.lhsNonContracting by decide)]
  rfl
theorem prod_l1 (j : S40x20000.Idx) (q : prodDims.contr.Idx) : (prodDims.lhsIdx j q 1).val = (q ⟨0, by decide⟩).val :=
  prodDims.lhsIdx_val_of_single rfl j q
theorem prod_r0 (j : S40x20000.Idx) (q : prodDims.contr.Idx) : (prodDims.rhsIdx j q 0).val = (j 1).val := by
  unfold DotDims.rhsIdx
  rw [dif_neg (show ¬(0 : Fin S20000x64.rank) ∈ prodDims.rhsBatch by decide), dif_pos (show (0 : Fin S20000x64.rank) ∈ prodDims.rhsNonContracting by decide)]
  rfl
theorem prod_r1 (j : S40x20000.Idx) (q : prodDims.contr.Idx) : (prodDims.rhsIdx j q 1).val = (q ⟨0, by decide⟩).val :=
  prodDims.rhsIdx_val_of_single rfl j q

/-- The product of the 40 x 64 block with the transposed 20000 x 64 factor, into zeros, at entry (p, j). -/
theorem prod_apply (l : FVec Ideal S40x64 .bf16) (r : FVec Ideal S20000x64 .bf16) (p : Fin 40) (j : Fin 20000) :
    matmul (F := Ideal) prodDims none l r (constant (F := Ideal) S40x20000 .f32 0x00000000#32) (ix2 p j)
      = ∑ k : Fin 64, l (ix2 p k) * r (ix2 j k) :=
  LibMatmulNT.matmul_nt_zero_apply prodDims rfl rfl prod_l0 prod_l1 prod_r0 prod_r1 none l r (ix2 p j)

/-- The zeros the reset stores. -/
theorem pay1_apply (y : S8x128.Idx) : k0_pay1 (F := Ideal) y = Ideal.ofBits .f32 0x00000000#32 := rfl

/-- The sum term at an index of the block. -/
theorem pay2_apply (f : FVec Ideal S40x64 .bf16) (s : FVec Ideal S40x20000 .f32) (b : FVec Ideal S20000x64 .bf16)
    (x : FVec Ideal S8x128 .f32) (y : S8x128.Idx) :
    k0_pay2 (F := Ideal) f s b x y = x y + total c64 f b s := by
  unfold k0_pay2
  simp only [shapeCast_self]
  rw [addf_apply]
  refine congrArg (x y + ·) ?_
  refine (broadcastTo_apply _ _ y (ix2 (0 : Fin 1) (0 : Fin 1)) (fun a => by fin_cases a <;> rfl)).trans ?_
  refine (LibKeepdims.shapeCast_col_apply _ _ (0 : Fin 1) (0 : Fin 1)).trans ?_
  refine (LibKeepdims.sum_axis0_apply _ _ _ _ _ (0 : Fin 1)).trans ?_
  unfold total
  refine Finset.sum_congr rfl fun r _ => ?_
  refine (LibKeepdims.shapeCast_col_apply _ _ r (0 : Fin 1)).trans ?_
  refine (LibKeepdims.sum_axis1_apply _ _ _ _ _ r).trans ?_
  refine Finset.sum_congr rfl fun j _ => ?_
  simp only [mulf_apply, subf_apply, broadcast_apply, prod_apply]
  rfl

end Cert.KernelIdeal.StepSum

end
-- ==== Proof.Trajectory.lean ====
/-
  The accumulator's trajectory at exact arithmetic, and what the two written-back values add up to.

  At exact arithmetic every entry of the output block after point t is one number: the accumulator of the
  per-point sums, reset at t = 0 and t = 63 and idle at t = 125.  The sum at point t < 125 is that of the 40 rows
  40 t .. 40 t + 39 of the argument matrices (the first factor reaches the kernel through a change of float format,
  the identity at exact arithmetic).  So the value written back after t = 62 plus the value written back after
  t = 125 is the sum of the squared residuals of all 5000 x 20000 entries.
-/
import proofs.«140353_j5720896438486_2_alg».proof.Proof.BlockValue
import proofs.«140353_j5720896438486_2_alg».proof.Proof.StepSum

set_option maxRecDepth 16384

noncomputable section

namespace Cert.KernelIdeal.Acc

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open HashLoss Cert.KernelIdeal.StepSum

variable (m : (ℓ : Loc nD τ sig) → Buf (Elt Ideal) ℓ)

/-- The sum of the squared residuals of the blocks the body is handed at point `s`. -/
def inc (c : Dev nD) (s : ℕ) : EReal :=
  if h : s < cfg0.N then total (R := 40) (N := 20000) c64 (iblk m c 0 ⟨s, h⟩) (iblk m c 1 ⟨s, h⟩) (iblk m c 2 ⟨s, h⟩) else 0

/-- Every entry of the block after point `n` is the accumulator of the per-point sums. -/
theorem blockAt_eq (c : Dev nD) : ∀ (n : ℕ) (hn : n < cfg0.N) (y : S8x128.Idx), blockAt m c n hn y = accum (inc m c) n
  | 0, hn, y => by
    have e := congrFun (blockAt_resetAdd m c ⟨0, hn⟩ (Nat.zero_mod _) (Nat.zero_lt_succ 124)) y
    refine e.trans ?_
    rw [blockResetAdd_eq]
    refine (pay2_apply _ _ _ _ y).trans ?_
    rw [pay1_apply, Ideal.ofBits_zero_f32]
    show _ = 0 + inc m c 0
    unfold inc; rw [dif_pos hn]
  | n + 1, hn, y => by
    have hN : n + 1 < 126 := lt_of_lt_of_eq hn (show cfg0.N = 126 from N_0)
    by_cases h0 : (n + 1) % 63 = 0
    · have h1 : n + 1 < 125 := by omega
      have e := congrFun (blockAt_resetAdd m c ⟨n + 1, hn⟩ h0 h1) y
      refine e.trans ?_
      rw [blockResetAdd_eq]
      refine (pay2_apply _ _ _ _ y).trans ?_
      rw [pay1_apply, Ideal.ofBits_zero_f32, accum, if_pos h0, if_pos h1]
      unfold inc; rw [dif_pos hn]
    · by_cases h1 : n + 1 < 125
      · have e := congrFun (blockAt_add m c ⟨n + 1, hn⟩ h0 h1) y
        refine e.trans ?_
        rw [blockAdd_eq]
        refine (pay2_apply _ _ _ _ y).trans ?_
        rw [accum, if_neg h0, if_pos h1]
        have ih := blockAt_eq c n (Nat.lt_of_succ_lt hn) y
        refine congrArg₂ (· + ·) ih ?_
        unfold inc; rw [dif_pos hn]
      · have e := congrFun (blockAt_neither m c ⟨n + 1, hn⟩ h0 h1) y
        refine e.trans ?_
        rw [accum, if_neg h0, if_neg h1]
        exact blockAt_eq c n (Nat.lt_of_succ_lt hn) y

/-! ## The blocks, read off the argument matrices -/

/-- Which block of its matrix each window stages at point `t`: the two row-blocked inputs block min(t, 124), the
    second factor its one block, the output block t / 63. -/
theorem block_indices : ∀ t : Fin cfg0.N,
    win0_0.index t (0 : Fin 2) = min t.val 124 ∧ win0_0.index t (1 : Fin 2) = 0
    ∧ win0_1.index t (0 : Fin 2) = 0 ∧ win0_1.index t (1 : Fin 2) = 0
    ∧ win0_2.index t (0 : Fin 2) = min t.val 124 ∧ win0_2.index t (1 : Fin 2) = 0
    ∧ win0_3.index t (0 : Fin 2) = t.val / 63 ∧ win0_3.index t (1 : Fin 2) = 0 :=
  (by decide +kernel : ∀ t : Fin grid0.N, _)

/-- The first factor as the region finds it: the argument through a change of float format. -/
theorem V_first (c : Dev nD) :
    (V m c main_v0 : S5000x64.Idx → EReal) = (m ((c : Thread nD τ).loc main_arg0) : S5000x64.Idx → EReal) := by
  show StableHlo.after hostOps0 (fun b => m (c, b)) (Proc.devRef .tc main_v0) = _
  after_results
  rfl

/-- The second factor as the region finds it. -/
theorem V_second (c : Dev nD) :
    (V m c main_v1 : S20000x64.Idx → EReal) = (m ((c : Thread nD τ).loc main_arg1) : S20000x64.Idx → EReal) := by
  show StableHlo.after hostOps0 (fun b => m (c, b)) (Proc.devRef .tc main_v1) = _
  after_results
  rfl

/-- The per-point sum at a point below 125 is that of the 40 rows 40 t .. 40 t + 39 of the argument matrices. -/
theorem inc_rows (c : Dev nD) (p : Fin 125) :
    inc m c p.val = ∑ q : Fin 40, ∑ j : Fin 20000,
      sqRes (R := 5000) (N := 20000) c64 (m ((c : Thread nD τ).loc main_arg0)) (m ((c : Thread nD τ).loc main_arg1))
        (m ((c : Thread nD τ).loc main_arg2)) ⟨40 * p.val + q.val, by have := p.isLt; have := q.isLt; omega⟩ j := by
  have hp : p.val < cfg0.N := lt_of_lt_of_eq (Nat.lt_trans p.isLt (by norm_num : 125 < 126)) N_0.symm
  unfold inc; rw [dif_pos hp]
  obtain ⟨e00, e01, e10, e11, e20, e21, -, -⟩ := block_indices ⟨p.val, hp⟩
  have hpl : p.val < 125 := p.isLt
  unfold total
  refine Finset.sum_congr rfl fun q _ => Finset.sum_congr rfl fun j _ => ?_
  have hq : q.val < 40 := q.isLt
  have hj : j.val < 20000 := j.isLt
  have a0 : ∀ k : Fin 64, iblk m c 0 ⟨p.val, hp⟩ (ix2 q k)
      = (m ((c : Thread nD τ).loc main_arg0) : S5000x64.Idx → EReal) (ix2 ⟨40 * p.val + q.val, by omega⟩ k) := fun k => by
    show V m c main_v0 (((cfg0.win 0).blk ⟨p.val, hp⟩).view.emb (ix2 q k)) = _
    rw [V_first]
    refine congrArg _ (funext fun a => Fin.ext ?_)
    have hk : k.val < 64 := k.isLt
    match a with
    | ⟨0, _⟩ => show win0_0.index ⟨p.val, hp⟩ (0 : Fin 2) * 40 + 1 * q.val = 40 * p.val + q.val; rw [e00]; dsimp only; omega
    | ⟨1, _⟩ => show win0_0.index ⟨p.val, hp⟩ (1 : Fin 2) * 64 + 1 * k.val = k.val; rw [e01]; omega
  have a1 : ∀ k : Fin 64, iblk m c 1 ⟨p.val, hp⟩ (ix2 j k)
      = (m ((c : Thread nD τ).loc main_arg1) : S20000x64.Idx → EReal) (ix2 j k) := fun k => by
    show V m c main_v1 (((cfg0.win 1).blk ⟨p.val, hp⟩).view.emb (ix2 j k)) = _
    rw [V_second]
    refine congrArg _ (funext fun a => Fin.ext ?_)
    have hk : k.val < 64 := k.isLt
    match a with
    | ⟨0, _⟩ => show win0_1.index ⟨p.val, hp⟩ (0 : Fin 2) * 20000 + 1 * j.val = j.val; rw [e10]; omega
    | ⟨1, _⟩ => show win0_1.index ⟨p.val, hp⟩ (1 : Fin 2) * 64 + 1 * k.val = k.val; rw [e11]; omega
  have a2 : iblk m c 2 ⟨p.val, hp⟩ (ix2 q j)
      = (m ((c : Thread nD τ).loc main_arg2) : S5000x20000.Idx → EReal) (ix2 ⟨40 * p.val + q.val, by omega⟩ j) := by
    show V m c main_arg2 (((cfg0.win 2).blk ⟨p.val, hp⟩).view.emb (ix2 q j)) = _
    rw [V_main_arg2]
    refine congrArg _ (funext fun a => Fin.ext ?_)
    match a with
    | ⟨0, _⟩ => show win0_2.index ⟨p.val, hp⟩ (0 : Fin 2) * 40 + 1 * q.val = 40 * p.val + q.val; rw [e20]; dsimp only; omega
    | ⟨1, _⟩ => show win0_2.index ⟨p.val, hp⟩ (1 : Fin 2) * 20000 + 1 * j.val = j.val; rw [e21]; omega
  unfold sqRes
  rw [a2]
  simp only [a0, a1]

/-- The two written-back values add up to the sum over all entries. -/
theorem two_rows_total (c : Dev nD) :
    accum (inc m c) 62 + accum (inc m c) 125
      = total (R := 5000) (N := 20000) c64 (m ((c : Thread nD τ).loc main_arg0)) (m ((c : Thread nD τ).loc main_arg1))
          (m ((c : Thread nD τ).loc main_arg2)) := by
  rw [accum_two_rows]
  unfold total
  rw [sum_rows_blocks]
  exact Finset.sum_congr rfl fun p _ => inc_rows m c p

end Cert.KernelIdeal.Acc

end
-- ==== Proof.FinalArray.lean ====
/-
  The 16 x 128 result of the kernel after the run, at exact arithmetic.

  The output block is written back twice: after point 62 into rows 0..7 and after point 125 into rows 8..15.
  Every entry of a written-back block is the accumulator's value at that point, so the result array is the
  accumulator's value after point 62 on rows 0..7 and its value after point 125 on rows 8..15; the two blocks
  cover the array.
-/
import proofs.«140353_j5720896438486_2_alg».proof.Proof.Trajectory

set_option maxRecDepth 16384

noncomputable section

namespace Cert.KernelIdeal.Acc

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open HashLoss Cert.KernelIdeal.StepSum

variable (m : (ℓ : Loc nD τ sig) → Buf (Elt Ideal) ℓ)

/-- The result array: one number on the upper eight rows, another on the lower eight. -/
def twoRows (c : Dev nD) : S16x128.Idx → EReal :=
  fun i => if (i 0).val < 8 then accum (inc m c) 62 else accum (inc m c) 125

/-- An index of the result is in the block written back at point `t` iff each coordinate is in the block's range. -/
theorem mem_block (t : Fin cfg0.N) (i : S16x128.Idx) :
    i ∈ ((cfg0.win 3).blk t).view.set ↔ ∀ a : Fin 2, win0_3.index t a * S8x128.size a ≤ (i a).val ∧ (i a).val < win0_3.index t a * S8x128.size a + S8x128.size a := by
  show i ∈ ((View.whole main_v2).slice (win0_3.rect t)).set ↔ _
  rw [View.set_slice_whole, Rect.mem_set_unit]
  exact Iff.rfl

/-- What a write-back writes is the corresponding block of the two-valued array. -/
theorem flushed_eq (c : Dev nD) (t : Fin cfg0.N) (hf : (cfg0.win 3).flush t = true) :
    (dats m 0 c).flushed 3 t = ((cfg0.win 3).blk t).view.read (Elt Ideal) (twoRows m c) := by
  have hN : t.val < 126 := lt_of_lt_of_eq t.isLt (show cfg0.N = 126 from N_0)
  have h62 : t.val % 63 = 62 := (flush0_3 t).mp hf
  obtain ⟨-, -, -, -, -, -, e30, e31⟩ := block_indices t
  show (cfg0.win 3).cut (grid0.coords t) ((dats m 0 c).after 3 t) = _
  rw [after3]
  funext y
  show blockAt m c t.val t.isLt y = twoRows m c (((cfg0.win 3).blk t).view.emb y)
  rw [blockAt_eq]
  unfold twoRows
  have hy : (y 0).val < 8 := (y 0).isLt
  have he : ((((cfg0.win 3).blk t).view.emb y) 0).val = win0_3.index t (0 : Fin 2) * 8 + 1 * (y 0).val := rfl
  rw [he, e30]
  rcases (show t.val = 62 ∨ t.val = 125 by omega) with h | h
  · rw [h, if_pos (by omega)]
  · rw [h, if_neg (by omega)]

/-- The array after the run. -/
theorem result_array (c : Dev nD) : (dats m 0 c).arrAt 3 cfg0.N = twoRows m c :=
  (dats m 0 c).arrAt_eq_of_cover 3 (twoRows m c) (fun t hf => flushed_eq m c t hf) (fun i => by
    have hi0 : (i 0).val < 16 := (i 0).isLt
    have hi1 : (i 1).val < 128 := (i 1).isLt
    by_cases h : (i 0).val < 8
    · have ht : (62 : ℕ) < cfg0.N := lt_of_lt_of_eq (by norm_num : 62 < 126) N_0.symm
      obtain ⟨-, -, -, -, -, -, e30, e31⟩ := block_indices ⟨62, ht⟩
      refine ⟨⟨62, ht⟩, (flush0_3 _).mpr (by show (62 : ℕ) % 63 = 62; norm_num), ?_⟩
      rw [mem_block]
      intro a
      match a with
      | ⟨0, _⟩ => show win0_3.index ⟨62, ht⟩ (0 : Fin 2) * 8 ≤ (i 0).val ∧ (i 0).val < win0_3.index ⟨62, ht⟩ (0 : Fin 2) * 8 + 8; rw [e30]; dsimp only; omega
      | ⟨1, _⟩ => show win0_3.index ⟨62, ht⟩ (1 : Fin 2) * 128 ≤ (i 1).val ∧ (i 1).val < win0_3.index ⟨62, ht⟩ (1 : Fin 2) * 128 + 128; rw [e31]; omega
    · have ht : (125 : ℕ) < cfg0.N := lt_of_lt_of_eq (by norm_num : 125 < 126) N_0.symm
      obtain ⟨-, -, -, -, -, -, e30, e31⟩ := block_indices ⟨125, ht⟩
      refine ⟨⟨125, ht⟩, (flush0_3 _).mpr (by show (125 : ℕ) % 63 = 62; norm_num), ?_⟩
      rw [mem_block]
      intro a
      match a with
      | ⟨0, _⟩ => show win0_3.index ⟨125, ht⟩ (0 : Fin 2) * 8 ≤ (i 0).val ∧ (i 0).val < win0_3.index ⟨125, ht⟩ (0 : Fin 2) * 8 + 8; rw [e30]; dsimp only; omega
      | ⟨1, _⟩ => show win0_3.index ⟨125, ht⟩ (1 : Fin 2) * 128 ≤ (i 1).val ∧ (i 1).val < win0_3.index ⟨125, ht⟩ (1 : Fin 2) * 128 + 128; rw [e31]; omega)

end Cert.KernelIdeal.Acc

end
-- ==== Proof.RefSum.lean ====
/-
  The reference's result at exact arithmetic: the loss as a function of the hash term, and the hash term as the sum of
  the squared residuals of all entries.

  The reference computes 64 * S - F Bᵀ with the second factor transposed first, squares it entrywise and sums over both
  axes from zero.  Entry (r, j) of the product is the sum over k of F[r, k] * B[j, k] (the transpose swaps the two
  coordinates back), so the summand at (r, j) is the squared residual, and the sum over all index pairs is the double
  sum over rows and columns.  The rest of the program - the quantization and correlation terms, the weights 200 and
  50, the division by 1e8 - is gathered into one function `loss` of the hash term and the arguments.
-/
import proofs.«140353_j5720896438486_2_alg».proof.Defs
import proofs.«140353_j5720896438486_2_alg».proof.Proof.Gen.ReferenceIdeal.Read
import proofs.«140353_j5720896438486_2_alg».proof.Proof.HashSpec

set_option maxRecDepth 16384

noncomputable section

namespace Cert.ReferenceIdeal.Loss

open Cert.ReferenceIdeal Cert.ReferenceIdeal.Read
open Idealize.ShloMosaic Idealize.ShloMosaic.ValueIdx HashLoss

/-- The loss from the hash term `h`: (h + 200 * quantization + 50 * correlation) / 1e8, the last three read off the
    first factor, the second factor and the index vector exactly as the reference computes them. -/
def loss (h : FVec Ideal S_ .f32) (x0 : FVec Ideal S5000x64 .f32) (x1 : FVec Ideal S20000x64 .f32)
    (x3 : (⟨S5000, .i32⟩ : BufTy).Contents (Elt Ideal)) : FVec Ideal S_ .f32 :=
  Host.divf (F := Ideal) (φ := .f32)
    (addf (φ := .f32) (addf (φ := .f32) h (val_main_v18 (F := Ideal) x0 x1 x3)) (val_main_v20 (F := Ideal) x0))
    (val_main_cst_6 (F := Ideal))

/-- The reference's result is the loss of its hash term. -/
theorem result_eq (x0 : (⟨S5000x64, .f32⟩ : BufTy).Contents (Elt Ideal)) (x1 : (⟨S20000x64, .f32⟩ : BufTy).Contents (Elt Ideal))
    (x2 : (⟨S5000x20000, .f32⟩ : BufTy).Contents (Elt Ideal)) (x3 : (⟨S5000, .i32⟩ : BufTy).Contents (Elt Ideal)) :
    val_main_v22 (F := Ideal) x0 x1 x2 x3 = loss (val_main_v6 (F := Ideal) x0 x1 x2) x0 x1 x3 := rfl

/-- The reference's hash term is the sum of the squared residuals of all entries. -/
theorem hash_eq (x0 : (⟨S5000x64, .f32⟩ : BufTy).Contents (Elt Ideal)) (x1 : (⟨S20000x64, .f32⟩ : BufTy).Contents (Elt Ideal))
    (x2 : (⟨S5000x20000, .f32⟩ : BufTy).Contents (Elt Ideal)) (i : S_.Idx) :
    val_main_v6 (F := Ideal) x0 x1 x2 i = total (R := 5000) (N := 20000) c64 x0 x1 x2 := by
  rw [val_main_v6_apply, val_main_cst_0_apply]
  refine (congrArg (· + _) Ideal.ofBits_zero_f32).trans ?_
  rw [zero_add, sum_idx2]
  unfold total
  refine Finset.sum_congr rfl fun r _ => Finset.sum_congr rfl fun j _ => ?_
  have el : ∀ k : Fin 64, lidx_main_v3 (ix2 r j) k = ix2 r k := fun k => funext fun a => Fin.ext (by
    match a with
    | ⟨0, _⟩ => rfl
    | ⟨1, _⟩ => rfl)
  have er : ∀ k : Fin 64, idx_main_v2 (ridx_main_v3 (ix2 r j) k) = ix2 j k := fun k => funext fun a => Fin.ext (by
    match a with
    | ⟨0, _⟩ => rfl
    | ⟨1, _⟩ => rfl)
  rw [val_main_v5_apply, val_main_v4_apply, val_main_v1_apply, val_main_v0_apply, val_main_cst_apply, val_main_v3_apply]
  simp only [val_main_v2_apply, el, er]
  rfl

end Cert.ReferenceIdeal.Loss

end
-- ==== Proof.KernelValue.lean ====
/-
  The kernel's result at exact arithmetic.

  After the region the program reads entries (0, 0) and (8, 0) of the 16 x 128 result - the accumulator's values after
  points 62 and 125 - adds them, and feeds the sum to the same closing lines as the reference: plus 200 times the
  quantization term, plus 50 times the correlation term, divided by 1e8, all three computed from the unchanged
  arguments.  The two entries add up to the sum of the squared residuals of all entries, so the result is the
  reference's loss function of that total.
-/
import proofs.«140353_j5720896438486_2_alg».proof.Proof.FinalArray
import proofs.«140353_j5720896438486_2_alg».proof.Proof.RefSum

set_option maxRecDepth 16384

noncomputable section

namespace Cert.KernelIdeal.Acc

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open HashLoss

variable (m : (ℓ : Loc nD τ sig) → Buf (Elt Ideal) ℓ) (ρ : Dev nD → PrngReg)

/-- A 1 x 1 array cast to a scalar reads its one entry. -/
theorem scalar_of_1x1 (x : S1x1.Idx → EReal) (h : S1x1.ShapeCasts S_) (i : S_.Idx) :
    shapeCast S_ x h i = x (ix2 (0 : Fin 1) (0 : Fin 1)) := by
  refine shapeCast_apply x h i (ix2 (0 : Fin 1) (0 : Fin 1)) ?_
  rw [Shape.rowMajor_val_two]
  have hlt : (Shape.rowMajor S_ i).val < 1 := (Shape.rowMajor S_ i).isLt
  show (0 : ℕ) * 1 + 0 = _
  omega

/-- Entry (0, 0) of the result, as the program reads it: the accumulator after point 62. -/
theorem read_upper (c : Dev nD) (hs : S16x128.Slices ![0, 0] S1x1) (hc : S1x1.ShapeCasts S_) (i : S_.Idx) :
    shapeCast S_ (extractStridedSlice S1x1 ![0, 0] (twoRows m c) hs) hc i = accum (inc m c) 62 := by
  rw [scalar_of_1x1, extractStridedSlice_apply ![0, 0] (twoRows m c) hs (ix2 (0 : Fin 1) (0 : Fin 1)) (ix2 (0 : Fin 16) (0 : Fin 128))
    (fun a => by fin_cases a <;> rfl)]
  unfold twoRows
  rw [if_pos (by show (0 : ℕ) < 8; norm_num)]

/-- Entry (8, 0) of the result: the accumulator after point 125. -/
theorem read_lower (c : Dev nD) (hs : S16x128.Slices ![8, 0] S1x1) (hc : S1x1.ShapeCasts S_) (i : S_.Idx) :
    shapeCast S_ (extractStridedSlice S1x1 ![8, 0] (twoRows m c) hs) hc i = accum (inc m c) 125 := by
  rw [scalar_of_1x1, extractStridedSlice_apply ![8, 0] (twoRows m c) hs (ix2 (0 : Fin 1) (0 : Fin 1)) (ix2 (8 : Fin 16) (0 : Fin 128))
    (fun a => by fin_cases a <;> rfl)]
  unfold twoRows
  rw [if_neg (by show ¬(8 : ℕ) < 8; norm_num)]

set_option maxHeartbeats 3200000 in
/-- What the lines after the region leave in the result buffer: the loss of the total. -/
theorem kernel_result (c : Dev nD) :
    Pipeline.afterTail₀ cfgs (dats m) 0 (V0 m) [hostOps1] c main_v23
      = Cert.ReferenceIdeal.Loss.loss
          (fun _ => total (R := 5000) (N := 20000) c64 (m ((c : Thread nD τ).loc main_arg0)) (m ((c : Thread nD τ).loc main_arg1))
            (m ((c : Thread nD τ).loc main_arg2)))
          (m ((c : Thread nD τ).loc main_arg0)) (m ((c : Thread nD τ).loc main_arg1)) (m ((c : Thread nD τ).loc main_arg3)) := by
  unfold Pipeline.afterTail₀
  simp only [List.flatten_cons, List.flatten_nil, List.append_nil]
  after_results
  have w2 : Pipeline.withArrays (cfgs 0).spec c (V0 m c) (fun w => (dats m 0 c).arrAt w (cfgs 0).N) (Proc.devRef .tc main_v2) = twoRows m c :=
    (Pipeline.withArrays_arr spec0 launch0.win.arr_inj c _ _ 3).trans (result_array m c)
  have w0 : Pipeline.withArrays (cfgs 0).spec c (V0 m c) (fun w => (dats m 0 c).arrAt w (cfgs 0).N) (Proc.devRef .tc main_arg0) = m ((c : Thread nD τ).loc main_arg0) :=
    (Pipeline.withArrays_of_ne _ c (V0 m c) _ main_arg0 (by exact (by decide : ∀ w, Pipeline.arrRef spec0 w ≠ main_arg0))).trans (V_main_arg0 m c)
  have w1 : Pipeline.withArrays (cfgs 0).spec c (V0 m c) (fun w => (dats m 0 c).arrAt w (cfgs 0).N) (Proc.devRef .tc main_arg1) = m ((c : Thread nD τ).loc main_arg1) :=
    (Pipeline.withArrays_of_ne _ c (V0 m c) _ main_arg1 (by exact (by decide : ∀ w, Pipeline.arrRef spec0 w ≠ main_arg1))).trans (V_main_arg1 m c)
  have w3 : Pipeline.withArrays (cfgs 0).spec c (V0 m c) (fun w => (dats m 0 c).arrAt w (cfgs 0).N) (Proc.devRef .tc main_arg3) = m ((c : Thread nD τ).loc main_arg3) :=
    (Pipeline.withArrays_of_ne _ c (V0 m c) _ main_arg3 (by exact (by decide : ∀ w, Pipeline.arrRef spec0 w ≠ main_arg3))).trans (V_main_arg3 m c)
  rw [w2, w0, w1, w3]
  refine Eq.trans (b := Cert.ReferenceIdeal.Loss.loss _ (m ((c : Thread nD τ).loc main_arg0)) (m ((c : Thread nD τ).loc main_arg1))
    (m ((c : Thread nD τ).loc main_arg3))) rfl ?_
  refine congrArg (fun h => Cert.ReferenceIdeal.Loss.loss h _ _ _) (funext fun i => ?_)
  refine ((addf_apply _ _ i).trans ?_).trans (two_rows_total m c)
  refine congrArg₂ (· + ·) ?_ ?_
  · exact read_upper m c _ _ i
  · exact read_lower m c _ _ i

/-- The run of the idealized kernel with its result named: the loss of the total, the arguments unchanged. -/
theorem run_value : θ_run defs (onTc (τ := τ) (main (F := Ideal))) ⟨m, fun _ => 0, ρ⟩ (fun r => ∀ c : Dev nD,
      r.2.mem ((c.tc : Thread nD τ).loc main_v23)
        = Cert.ReferenceIdeal.Loss.loss
            (fun _ => total (R := 5000) (N := 20000) c64 (m ((c : Thread nD τ).loc main_arg0)) (m ((c : Thread nD τ).loc main_arg1))
              (m ((c : Thread nD τ).loc main_arg2)))
            (m ((c : Thread nD τ).loc main_arg0)) (m ((c : Thread nD τ).loc main_arg1)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v23 (Pipeline.mem_restRefs_of main_v23 (by decide) (by decide))).trans (kernel_result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c)⟩)
    (run_main m ρ)

end Cert.KernelIdeal.Acc

end
-- ==== Proof.lean ====
/-
  The certificate's five claims.

  The kernel computes a loss (h + 200 q + 50 r) / 1e8 whose hash term h is the sum over all 5000 x 20000 entries of
  (64 S - F Bᵀ)^2, accumulated 40 rows at a time over a 2 x 63 grid into two 8 x 128 blocks (one per grid row, the
  last point of the second row idle), whose entries (0, 0) and (8, 0) are added after the region.  The reference
  computes the same h in one sum.  At exact arithmetic the two are the same extended real: only the order and grouping
  of a finite sum differ, so no finiteness of the inputs is used.

  * The two kernel programs run (terminate without a fault) and leave their arguments unchanged: the body's Hoare
    triple in each of its three cases, the accumulator's trajectory as the pipeline's proof data, the library's run
    theorem for a region followed by host lines.
  * The reference runs: its straight-line run, the result dropped.
  * Nothing was rewritten to idealize the kernel, so that claim is trivial.
  * Both idealized programs end with the loss of the same total: the kernel's by the trajectory and the two
    written-back blocks, the reference's by reading its sum at an index.
-/
import proofs.«140353_j5720896438486_2_alg».proof.Defs
import proofs.«140353_j5720896438486_2_alg».proof.Proof.Gen.Kernel
import proofs.«140353_j5720896438486_2_alg».proof.Proof.Gen.KernelIdeal
import proofs.«140353_j5720896438486_2_alg».proof.Proof.Gen.ReferenceIdeal
import proofs.«140353_j5720896438486_2_alg».proof.Proof.Gen.ReferenceIdeal.Run
import proofs.«140353_j5720896438486_2_alg».proof.Proof.Gen.ReferenceIdeal.Read
import proofs.«140353_j5720896438486_2_alg».proof.Proof.Gen.Pre_finite_inputs
import proofs.«140353_j5720896438486_2_alg».proof.Proof.CarryBits
import proofs.«140353_j5720896438486_2_alg».proof.Proof.KernelValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Acc.frame m ρ

theorem frame_kernelIdeal : Cert.frame_KernelIdeal := fun m ρ _ => Cert.KernelIdeal.Acc.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end with the loss of the sum of all squared residuals. -/
theorem algebraic : Cert.algebraic_KernelIdeal_ReferenceIdeal := by
  intro m ρ m' ρ' _ hagree
  refine ⟨_, Cert.KernelIdeal.Acc.run_value m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  refine (Cert.ReferenceIdeal.Read.val_main_v22_eq (F := Ideal) _ _ _ _).trans ?_
  refine (Cert.ReferenceIdeal.Loss.result_eq _ _ _ _).trans ?_
  exact congrArg (fun h => Cert.ReferenceIdeal.Loss.loss h _ _ _) (funext fun i => Cert.ReferenceIdeal.Loss.hash_eq _ _ _ i)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
